-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v1_1)) (v1 : (c : Dev Cert.KernelIdeal.nD) → Buf (Elt Ideal) ((c.tc : Thread Cert.KernelIdeal.nD Cert.KernelIdeal.τ).loc Cert.KernelIdeal.main_v1_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_1) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x64 : Shape := ⟨2, ![1024, 64]⟩
abbrev S64 : Shape := ⟨1, ![64]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S1024x64 .f32) (main_arg8 : FVec F S64 .f32) (main_v33 : IVec S_ 1) : IVec S_ 1 :=
  let main_v34 : FVec F S1024x64 .f32 := Host.absf main_arg7
  let main_cst_12 : FVec F S_ .f32 := constant S_ .f32 0x7F800000#32
  let main_v35 : FVec F S1024x64 .f32 := broadcastInDim S1024x64 ![] bcast_S_S1024x64 main_cst_12
  let main_v36 : IVec S1024x64 1 := cmpf .olt main_v34 main_v35
  let main_c_13 : IVec S_ 1 := constantI S_ 1 1#1
  let main_v37 : IVec S_ 1 := (fun x v => Host.reduce IntOp.andi x v reducesTo_S1024x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S64 .f32) (main_arg5 : FVec F S1024x64 .f32) (main_arg6 : FVec F S64 .f32) (main_arg7 : FVec F S1024x64 .f32) (main_arg8 : FVec F S64 .f32) (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S1024x64 .f32 := Host.absf main_arg5
  let main_cst_8 : FVec F S_ .f32 := constant S_ .f32 0x7F800000#32
  let main_v25 : FVec F S1024x64 .f32 := broadcastInDim S1024x64 ![] bcast_S_S1024x64 main_cst_8
  let main_v26 : IVec S1024x64 1 := cmpf .olt main_v24 main_v25
  let main_c_9 : IVec S_ 1 := constantI S_ 1 1#1
  let main_v27 : IVec S_ 1 := (fun x v => Host.reduce IntOp.andi x v reducesTo_S1024x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S4x4096x1024 .f32) (main_arg1 : FVec F S4x4096x1024 .f32) (main_arg2 : FVec F S4x4096x1024 .f32) (main_arg3 : FVec F S1024x64 .f32) (main_arg4 : FVec F S64 .f32) (main_arg5 : FVec F S1024x64 .f32) (main_arg6 : FVec F S64 .f32) (main_arg7 : FVec F S1024x64 .f32) (main_arg8 : FVec F S64 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x1024 .f32 := Host.absf main_arg1
  let main_cst_0 : FVec F S_ .f32 := constant S_ .f32 0x7F800000#32
  let main_v5 : FVec F S4x4096x1024 .f32 := broadcastInDim S4x4096x1024 ![] bcast_S_S4x4096x1024 main_cst_0
  let main_v6 : IVec S4x4096x1024 1 := cmpf .olt main_v4 main_v5
  let main_c_1 : IVec S_ 1 := constantI S_ 1 1#1
  let main_v7 : IVec S_ 1 := (fun x v => Host.reduce IntOp.andi x v reducesTo_S4x4096x1024_S_d0_1_2 h_S_) main_v6 main_c_1
  let main_v8 : IVec S_ 1 := andi main_v3 main_v7
  let main_v9 : FVec F S4x4096x1024 .f32 := Host.absf main_arg2
  let main_cst_2 : FVec F S_ .f32 := constant S_ .f32 0x7F800000#32
  let main_v10 : FVec F S4x4096x1024 .f32 := broadcastInDim S4x4096x1024 ![] bcast_S_S4x4096x1024 main_cst_2
  let main_v11 : IVec S4x4096x1024 1 := cmpf .olt main_v9 main_v10
  let main_c_3 : IVec S_ 1 := constantI S_ 1 1#1
  let main_v12 : IVec S_ 1 := (fun x v => Host.reduce IntOp.andi x v reducesTo_S4x4096x1024_S_d0_1_2 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_arg4 main_arg5 main_arg6 main_arg7 main_arg8 main_v13 main_v16
-- ==== Kernel.lean ====
abbrev S4x4096x1024 : Shape := ⟨3, ![4, 4096, 1024]⟩
abbrev S1024x64 : Shape := ⟨2, ![1024, 64]⟩
abbrev S64 : Shape := ⟨1, ![64]⟩
abbrev S4x4096x64 : Shape := ⟨3, ![4, 4096, 64]⟩
abbrev S1x1024x1024 : Shape := ⟨3, ![1, 1024, 1024]⟩
abbrev S1x1024x64 : Shape := ⟨3, ![1, 1024, 64]⟩
abbrev S1024x1024 : Shape := ⟨2, ![1024, 1024]⟩
abbrev S1x64 : Shape := ⟨2, ![1, 64]⟩
abbrev S4x4096x4096 : Shape := ⟨3, ![4, 4096, 4096]⟩
abbrev S1x256x64 : Shape := ⟨3, ![1, 256, 64]⟩
abbrev S1x4096x64 : Shape := ⟨3, ![1, 4096, 64]⟩
abbrev S1x256x4096 : Shape := ⟨3, ![1, 256, 4096]⟩
abbrev S256x64 : Shape := ⟨2, ![256, 64]⟩
abbrev S4096x64 : Shape := ⟨2, ![4096, 64]⟩
abbrev S256x4096 : Shape := ⟨2, ![256, 4096]⟩
abbrev S256 : Shape := ⟨1, ![256]⟩
abbrev S256x1 : Shape := ⟨2, ![256, 1]⟩

abbrev nBuf : Space → Nat
  | .hbm => 14
  | .vmem => 28
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S1024x64, .f32⟩
  | .hbm, ⟨4, _⟩ => ⟨S64, .f32⟩
  | .hbm, ⟨5, _⟩ => ⟨S1024x64, .f32⟩
  | .hbm, ⟨6, _⟩ => ⟨S64, .f32⟩
  | .hbm, ⟨7, _⟩ => ⟨S1024x64, .f32⟩
  | .hbm, ⟨8, _⟩ => ⟨S64, .f32⟩
  | .hbm, ⟨9, _⟩ => ⟨S4x4096x64, .bf16⟩
  | .hbm, ⟨10, _⟩ => ⟨S4x4096x64, .bf16⟩
  | .hbm, ⟨11, _⟩ => ⟨S4x4096x64, .bf16⟩
  | .hbm, ⟨12, _⟩ => ⟨S4x4096x4096, .f32⟩
  | .hbm, ⟨13, _⟩ => ⟨S4x4096x64, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1024x64, .f32⟩
  | .local _ .vmem, ⟨7, _⟩ => ⟨S64, .f32⟩
  | .local _ .vmem, ⟨8, _⟩ => ⟨S1024x64, .f32⟩
  | .local _ .vmem, ⟨9, _⟩ => ⟨S64, .f32⟩
  | .local _ .vmem, ⟨10, _⟩ => ⟨S1024x64, .f32⟩
  | .local _ .vmem, ⟨11, _⟩ => ⟨S64, .f32⟩
  | .local _ .vmem, ⟨12, _⟩ => ⟨S1x1024x64, .bf16⟩
  | .local _ .vmem, ⟨13, _⟩ => ⟨S1x1024x64, .bf16⟩
  | .local _ .vmem, ⟨14, _⟩ => ⟨S1x1024x64, .bf16⟩
  | .local _ .vmem, ⟨15, _⟩ => ⟨S1x1024x64, .bf16⟩
  | .local _ .vmem, ⟨16, _⟩ => ⟨S1x1024x64, .bf16⟩
  | .local _ .vmem, ⟨17, _⟩ => ⟨S1x1024x64, .bf16⟩
  | .local _ .vmem, ⟨18, _⟩ => ⟨S1x256x64, .bf16⟩
  | .local _ .vmem, ⟨19, _⟩ => ⟨S1x256x64, .bf16⟩
  | .local _ .vmem, ⟨20, _⟩ => ⟨S1x4096x64, .bf16⟩
  | .local _ .vmem, ⟨21, _⟩ => ⟨S1x4096x64, .bf16⟩
  | .local _ .vmem, ⟨22, _⟩ => ⟨S1x4096x64, .bf16⟩
  | .local _ .vmem, ⟨23, _⟩ => ⟨S1x4096x64, .bf16⟩
  | .local _ .vmem, ⟨24, _⟩ => ⟨S1x256x4096, .f32⟩
  | .local _ .vmem, ⟨25, _⟩ => ⟨S1x256x4096, .f32⟩
  | .local _ .vmem, ⟨26, _⟩ => ⟨S1x256x64, .f32⟩
  | .local _ .vmem, ⟨27, _⟩ => ⟨S1x256x64, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v1_0 : Ref sig .tc := ⟨.hbm, 12, rfl⟩
abbrev main_v1_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  packedbf16_S1x1024x64_S1x1024x64_0_0_0 : (Rect.unit (s := S1x1024x64) ![0, 0, 0] S1x1024x64.size inb_S1x1024x64_S1x1024x64_0_0_0).PackedRows (EltTy.packing .bf16)
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  shapeCasts_S256x4096_S1x256x4096 : S256x4096.ShapeCasts S1x256x4096
  reduces_S256x4096_S256 : S256x4096.Reduces [1] S256
  shapeCasts_S256_S256x1 : S256.ShapeCasts S256x1
  broadcasts_S256x1_S256x4096 : S256x1.Broadcasts S256x4096
  broadcasts_S256x1_S256x64 : S256x1.Broadcasts S256x64
  shapeCasts_S256x64_S1x256x64 : S256x64.ShapeCasts S1x256x64
  dot_S1024x1024_S1024x64_S1024x64_1_0_0_1_n_n_wf : DotDims.WF S1024x1024 S1024x64 S1024x64 [1] [0] [0] [1] [] []
  dot_S256x64_S4096x64_S256x4096_1_1_0_0_n_n_wf : DotDims.WF S256x64 S4096x64 S256x4096 [1] [1] [0] [0] [] []
  dot_S256x4096_S4096x64_S256x64_1_0_0_1_n_n_wf : DotDims.WF S256x4096 S4096x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x4096x1024.size a
  hwx0_0 : ∀ i : grid0.Coords, EltTy.bits .f32 = 32 ∨ (Rect.block (s := S4x4096x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S4x4096x1024.size a
  hwx0_1 : ∀ i : grid0.Coords, EltTy.bits .f32 = 32 ∨ (Rect.block (s := S4x4096x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S4x4096x1024.size a
  hwx0_2 : ∀ i : grid0.Coords, EltTy.bits .f32 = 32 ∨ (Rect.block (s := S4x4096x1024) S1x1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S1024x64.size a
  hwx0_3 : ∀ i : grid0.Coords, EltTy.bits .f32 = 32 ∨ (Rect.block (s := S1024x64) S1024x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x64.size a ≤ S1024x64.size a
  hwx0_5 : ∀ i : grid0.Coords, EltTy.bits .f32 = 32 ∨ (Rect.block (s := S1024x64) S1024x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x64.size a ≤ S1024x64.size a
  hwx0_7 : ∀ i : grid0.Coords, EltTy.bits .f32 = 32 ∨ (Rect.block (s := S1024x64) S1024x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1024x64.size a ≤ S4x4096x64.size a
  hwx0_9 : ∀ i : grid0.Coords, EltTy.bits .bf16 = 32 ∨ (Rect.block (s := S4x4096x64) S1x1024x64.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1024x64.size a ≤ S4x4096x64.size a
  hwx0_10 : ∀ i : grid0.Coords, EltTy.bits .bf16 = 32 ∨ (Rect.block (s := S4x4096x64) S1x1024x64.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1024x64.size a ≤ S4x4096x64.size a
  hwx0_11 : ∀ i : grid0.Coords, EltTy.bits .bf16 = 32 ∨ (Rect.block (s := S4x4096x64) S1x1024x64.size (cc0_transform_11 i) (hinb0_11 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x64.size a ≤ S4x4096x64.size a
  hwx1_0 : ∀ i : grid1.Coords, EltTy.bits .bf16 = 32 ∨ (Rect.block (s := S4x4096x64) S1x256x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x64.size a ≤ S4x4096x64.size a
  hwx1_1 : ∀ i : grid1.Coords, EltTy.bits .bf16 = 32 ∨ (Rect.block (s := S4x4096x64) S1x4096x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x64.size a ≤ S4x4096x64.size a
  hwx1_2 : ∀ i : grid1.Coords, EltTy.bits .bf16 = 32 ∨ (Rect.block (s := S4x4096x64) S1x4096x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x4096.size a ≤ S4x4096x4096.size a
  hwx1_3 : ∀ i : grid1.Coords, EltTy.bits .f32 = 32 ∨ (Rect.block (s := S4x4096x4096) S1x256x4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x64.size a ≤ S4x4096x64.size a
  hwx1_4 : ∀ i : grid1.Coords, EltTy.bits .f32 = 32 ∨ (Rect.block (s := S4x4096x64) S1x256x64.size (cc1_transform_4 i) (hinb1_4 i)).WholeWords (EltTy.packing .f32)

variable [Facts₀]

def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S256x64_S4096x64_S256x4096_1_1_0_0_n_n : DotDims S256x64 S4096x64 S256x4096 where
  lhsContracting := [1]
  rhsContracting := [1]
  lhsNonContracting := [0]
  rhsNonContracting := [0]
  lhsBatch := []
  rhsBatch := []
  wf := dot_S256x64_S4096x64_S256x4096_1_1_0_0_n_n_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1024x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0_0) S1x1024x64.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_1) S1x1024x64.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_2) S1x1024x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v0_0) S1x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1x4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S1x4096x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1_0) S1x256x4096.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1_1) S1x256x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S1024x64 : Shape := ⟨2, ![1024, 64]⟩
abbrev S64 : Shape := ⟨1, ![64]⟩
abbrev S4x4096x64 : Shape := ⟨3, ![4, 4096, 64]⟩
abbrev S1x1x64 : Shape := ⟨3, ![1, 1, 64]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 41
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S1024x64, .f32⟩
  | .hbm, ⟨4, _⟩ => ⟨S64, .f32⟩
  | .hbm, ⟨5, _⟩ => ⟨S1024x64, .f32⟩
  | .hbm, ⟨6, _⟩ => ⟨S64, .f32⟩
  | .hbm, ⟨7, _⟩ => ⟨S1024x64, .f32⟩
  | .hbm, ⟨8, _⟩ => ⟨S64, .f32⟩
  | .hbm, ⟨9, _⟩ => ⟨S4x4096x64, .f32⟩
  | .hbm, ⟨10, _⟩ => ⟨S1x1x64, .f32⟩
  | .hbm, ⟨11, _⟩ => ⟨S4x4096x64, .f32⟩
  | .hbm, ⟨12, _⟩ => ⟨S4x4096x64, .f32⟩
  | .hbm, ⟨13, _⟩ => ⟨S4x4096x64, .f32⟩
  | .hbm, ⟨14, _⟩ => ⟨S1x1x64, .f32⟩
  | .hbm, ⟨15, _⟩ => ⟨S4x4096x64, .f32⟩
  | .hbm, ⟨16, _⟩ => ⟨S4x4096x64, .f32⟩
  | .hbm, ⟨17, _⟩ => ⟨S4x4096x64, .f32⟩
  | .hbm, ⟨18, _⟩ => ⟨S1x1x64, .f32⟩
  | .hbm, ⟨19, _⟩ => ⟨S4x4096x64, .f32⟩
  | .hbm, ⟨20, _⟩ => ⟨S4x4096x64, .f32⟩
  | .hbm, ⟨21, _⟩ => ⟨S4x4096x4096, .f32⟩
  | .hbm, ⟨22, _⟩ => ⟨S_, .f32⟩
  | .hbm, ⟨23, _⟩ => ⟨S_, .f32⟩
  | .hbm, ⟨24, _⟩ => ⟨S4x4096x4096, .f32⟩
  | .hbm, ⟨25, _⟩ => ⟨S4x4096x4096, .f32⟩
  | .hbm, ⟨26, _⟩ => ⟨S_, .f32⟩
  | .hbm, ⟨27, _⟩ => ⟨S4x4096, .f32⟩
  | .hbm, ⟨28, _⟩ => ⟨S_, .f32⟩
  | .hbm, ⟨29, _⟩ => ⟨S4x4096, .f32⟩
  | .hbm, ⟨30, _⟩ => ⟨S4x4096, .f32⟩
  | .hbm, ⟨31, _⟩ => ⟨S4x4096x1, .f32⟩
  | .hbm, ⟨32, _⟩ => ⟨S4x4096x4096, .f32⟩
  | .hbm, ⟨33, _⟩ => ⟨S4x4096x4096, .f32⟩
  | .hbm, ⟨34, _⟩ => ⟨S4x4096x4096, .f32⟩
  | .hbm, ⟨35, _⟩ => ⟨S_, .f32⟩
  | .hbm, ⟨36, _⟩ => ⟨S4x4096, .f32⟩
  | .hbm, ⟨37, _⟩ => ⟨S4x4096x1, .f32⟩
  | .hbm, ⟨38, _⟩ => ⟨S4x4096x4096, .f32⟩
  | .hbm, ⟨39, _⟩ => ⟨S4x4096x4096, .f32⟩
  | .hbm, ⟨40, _⟩ => ⟨S4x4096x64, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S4x4096x64_0_1_2 : S1x1x64.BroadcastsInDim S4x4096x64 (![0, 1, 2] : Fin 3 → Fin S4x4096x64.rank)
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S1024x64_S4x4096x64_2_0_01_1_n_n_wf : DotDims.WF S4x4096x1024 S1024x64 S4x4096x64 [2] [0] [0, 1] [1] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x1024_S1024x64_S4x4096x64_2_0_01_1_n_n : DotDims S4x4096x1024 S1024x64 S4x4096x64 where
  lhsContracting := [2]
  rhsContracting := [0]
  lhsNonContracting := [0, 1]
  rhsNonContracting := [1]
  lhsBatch := []
  rhsBatch := []
  wf := dot_S4x4096x1024_S1024x64_S4x4096x64_2_0_01_1_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.KernelRun.lean ====
/-
  The run of the two-region attention program with its results named.

  @main is two regions in sequence: the projection region writes q, k, v; the attention region reads them and writes
  the scores and the output. Every weakly fair execution terminates without a fault, and in the final state every
  unscoped buffer holds the contents at the last segment boundary. Read at the two result buffers, those contents are
  what the attention region's write-backs leave (its folded blocks, `Dat.arrAt … N`), at the entry contents the
  projection region left; read at an argument buffer they are the launch contents.
-/
import proofs.«112885_j28432683499824_2_alg».proof.Proof.Gen.KernelIdeal.Frame

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with its results: the output array and the scores array end at the last boundary's contents, the nine
    arguments as launched. -/
theorem run_results : θ_run defs (onTc (τ := τ) (main (F := F))) ⟨m, fun _ => 0, ρ⟩ (fun r => ∀ c : Dev nD,
      r.2.mem ((c.tc : Thread nD τ).loc main_v1_1) = W2 m ρ c (Proc.devRef .tc main_v1_1)
      ∧ r.2.mem ((c.tc : Thread nD τ).loc main_v1_0) = W2 m ρ c (Proc.devRef .tc main_v1_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1_1 (by decide)),
       h c _ (mem_uc main_v1_0 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c),
       (h c _ (mem_uc main_arg5 (by decide))).trans (W2_main_arg5 m ρ c),
       (h c _ (mem_uc main_arg6 (by decide))).trans (W2_main_arg6 m ρ c),
       (h c _ (mem_uc main_arg7 (by decide))).trans (W2_main_arg7 m ρ c),
       (h c _ (mem_uc main_arg8 (by decide))).trans (W2_main_arg8 m ρ c)⟩)

/-- The output array at the last boundary is what the attention region's write-backs of its second output window
    leave, at the contents the projection region left. -/
theorem out_at_exit (c : Dev nD) :
    W2 m ρ c (Proc.devRef .tc main_v1_1) = (dat1 (V1 m ρ) c).arrAt 4 cfg1.N := W2_arr m ρ c 4

/-- The scores array at the last boundary is what the attention region's write-backs of its first output window leave. -/
theorem scores_at_exit (c : Dev nD) :
    W2 m ρ c (Proc.devRef .tc main_v1_0) = (dat1 (V1 m ρ) c).arrAt 3 cfg1.N := W2_arr m ρ c 3

/-- The attention region finds q, k, v where the projection region's write-backs left them … -/
theorem q_at_entry (c : Dev nD) : V1 m ρ c main_v0_0 = (dat0 (V0 m ρ) c).arrAt 9 cfg0.N := W1_arr m ρ c 9
theorem k_at_entry (c : Dev nD) : V1 m ρ c main_v0_1 = (dat0 (V0 m ρ) c).arrAt 10 cfg0.N := W1_arr m ρ c 10
theorem v_at_entry (c : Dev nD) : V1 m ρ c main_v0_2 = (dat0 (V0 m ρ) c).arrAt 11 cfg0.N := W1_arr m ρ c 11

end Cert.KernelIdeal.Attn

end
-- ==== Proof.Spec.lean ====
/-
  Single-head attention on the extended reals, as one function of the argument arrays.

  For inputs x_q, x_k, x_v : [4, 4096, 1024], weights W : [1024, 64] and biases b : [64]:
    q, k, v            = x · W + b                                   (`proj`, entry (b, s, d) = Σ_h x[b,s,h]·W[h,d] + bias[d])
    scores[b, i, j]    = (Σ_d q[b,i,d] · k[b,j,d]) · 1/8             (`scores`; 1/8 = 1/√64 is the word 0x3E000000)
    M[b, i]            = max_j scores[b,i,j]   (a fold of max from -∞) (`rowMax`)
    e[b, i, j]         = exp (scores[b,i,j] − M[b,i])                (`expw`)
    L[b, i]            = Σ_j e[b,i,j]                                (`denom`)
  and the attention output in its two arrangements:
    attnK[b, i, d]     = (Σ_j e[b,i,j] · v[b,j,d]) / L[b,i]          (the products summed first, ONE division per entry)
    attnR[b, i, d]     = Σ_j (e[b,i,j] / L[b,i]) · v[b,j,d]          (the weights normalised first: softmax, then the product)
  The two agree when every score and every value is a real number (then L is a positive real and the quotient
  distributes over the finite sum); on the extended reals in general they need not.
-/
import Idealize.ShloMosaic.Lib.ValueIdx
import Idealize.ShloMosaic.PureOps.Ideal.Laws

noncomputable section

namespace Cert.Attn

open Idealize.ShloMosaic Idealize.ShloMosaic.ValueIdx

/-- The activations' shape [batch, sequence, hidden]. -/
abbrev SX : Shape := ⟨3, ![4, 4096, 1024]⟩
/-- A projection matrix's shape [hidden, head]. -/
abbrev SW : Shape := ⟨2, ![1024, 64]⟩
/-- A bias vector's shape [head]. -/
abbrev SB : Shape := ⟨1, ![64]⟩
/-- A projected array's shape [batch, sequence, head]. -/
abbrev SP : Shape := ⟨3, ![4, 4096, 64]⟩
/-- The scores' shape [batch, query, key]. -/
abbrev SS : Shape := ⟨3, ![4, 4096, 4096]⟩

/-- A linear projection: entry (b, s, d) is Σ_h x[b,s,h] · w[h,d] + bias[d]. -/
def proj (x : SX.Idx → EReal) (w : SW.Idx → EReal) (bias : SB.Idx → EReal) : SP.Idx → EReal :=
  fun i => (∑ h : Fin 1024, x (ix3 (i 0) (i 1) h) * w (ix2 h (i 2))) + bias (ix1 (i 2))

/-- The scale 1/8 = 1/√64, as the f32 word the kernel multiplies by. -/
def eighth : EReal := Ideal.ofBits .f32 0x3E000000#32

/-- The value every row maximum starts from: the f32 word of -∞. -/
def negInf : EReal := Ideal.ofBits .f32 0xFF800000#32

/-- Scaled dot-product scores: entry (b, i, j) is (Σ_d q[b,i,d] · k[b,j,d]) · 1/8. -/
def scores (q k : SP.Idx → EReal) : SS.Idx → EReal :=
  fun i => (∑ d : Fin 64, q (ix3 (i 0) (i 1) d) * k (ix3 (i 0) (i 2) d)) * eighth

/-- The maximum of row (b, i) of the scores, folded from -∞. -/
def rowMax (s : SS.Idx → EReal) (b : Fin 4) (i : Fin 4096) : EReal :=
  (Finset.univ : Finset (Fin 4096)).fold max negInf (fun j => s (ix3 b i j))

/-- The unnormalised softmax weight exp (s[b,i,j] − max_j s[b,i,j]). -/
def expw (s : SS.Idx → EReal) (b : Fin 4) (i j : Fin 4096) : EReal :=
  Ideal.exp (s (ix3 b i j) - rowMax s b i)

/-- The softmax denominator of row (b, i): Σ_j exp (s[b,i,j] − max). -/
def denom (s : SS.Idx → EReal) (b : Fin 4) (i : Fin 4096) : EReal :=
  ∑ j : Fin 4096, expw s b i j

/-- Attention with the products summed first and one division per entry: (Σ_j e[b,i,j] · v[b,j,d]) / L[b,i]. -/
def attnK (s : SS.Idx → EReal) (v : SP.Idx → EReal) : SP.Idx → EReal :=
  fun i => Ideal.div (∑ j : Fin 4096, expw s (i 0) (i 1) j * v (ix3 (i 0) j (i 2))) (denom s (i 0) (i 1))

/-- Attention with the weights normalised first: Σ_j (e[b,i,j] / L[b,i]) · v[b,j,d]. -/
def attnR (s : SS.Idx → EReal) (v : SP.Idx → EReal) : SP.Idx → EReal :=
  fun i => ∑ j : Fin 4096, Ideal.div (expw s (i 0) (i 1) j) (denom s (i 0) (i 1)) * v (ix3 (i 0) j (i 2))

end Cert.Attn

end
-- ==== Proof.LibRowsDot.lean ====
/-
  A product of rows: for matrices `l` of M rows and `r` of N rows, both of width K, the contraction of the second
  axis of each — the dimension numbers ⟨[1], [1], [0], [0], [], []⟩ of `DotDims.transposedRhs` — read at the output
  index (a, b) is the sum over k < K of l[a, k] · r[b, k]. The contraction index of the dimension record is a
  one-coordinate tuple; the sum is re-indexed through that coordinate.
-/
import Idealize.ShloMosaic.PureOps.Ideal.Laws
import Idealize.ShloMosaic.Lib.ValueIdx

noncomputable section

namespace Cert.RowsDot

open Idealize.ShloMosaic Idealize.ShloMosaic.ValueIdx

/-- The left operand's row coordinate is the output's row. -/
theorem lhs_row {M K N : Nat} (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The right operand's row coordinate is the output's column. -/
theorem rhs_row {M K N : Nat} (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The left operand's index at output (a, b) and contraction coordinate k is (a, k). -/
theorem lhs_at {M K N : Nat} (a : Fin M) (b : Fin N) (k : Fin K) :
    (DotDims.transposedRhs M K N).lhsIdx (ix2 a b) ((contrEquiv1 (DotDims.transposedRhs M K N) K rfl rfl).symm k) = ix2 a k := by
  have hk := contrEquiv1_symm_val (DotDims.transposedRhs M K N) K rfl rfl k
  funext x
  apply Fin.ext
  match x with
  | ⟨0, _⟩ => exact lhs_row _ _
  | ⟨1, _⟩ => exact ((DotDims.transposedRhs M K N).lhsIdx_val_of_single rfl _ _).trans hk

/-- The right operand's index there is (b, k). -/
theorem rhs_at {M K N : Nat} (a : Fin M) (b : Fin N) (k : Fin K) :
    (DotDims.transposedRhs M K N).rhsIdx (ix2 a b) ((contrEquiv1 (DotDims.transposedRhs M K N) K rfl rfl).symm k) = ix2 b k := by
  have hk := contrEquiv1_symm_val (DotDims.transposedRhs M K N) K rfl rfl k
  funext x
  apply Fin.ext
  match x with
  | ⟨0, _⟩ => exact rhs_row _ _
  | ⟨1, _⟩ => exact ((DotDims.transposedRhs M K N).rhsIdx_val_of_single rfl _ _).trans hk

/-- The contraction's sum at (a, b) is the sum over the shared width of the two rows' products. -/
theorem sum_at {M K N : Nat} (l : (⟨2, ![M, K]⟩ : Shape).Idx → EReal) (r : (⟨2, ![N, K]⟩ : Shape).Idx → EReal)
    (a : Fin M) (b : Fin N) :
    ∑ q : (DotDims.transposedRhs M K N).contr.Idx,
        l ((DotDims.transposedRhs M K N).lhsIdx (ix2 a b) q) * r ((DotDims.transposedRhs M K N).rhsIdx (ix2 a b) q)
      = ∑ k : Fin K, l (ix2 a k) * r (ix2 b k) := by
  rw [← Equiv.sum_comp (contrEquiv1 (DotDims.transposedRhs M K N) K rfl rfl).symm]
  refine Finset.sum_congr rfl fun k _ => ?_
  rw [lhs_at, rhs_at]

/-- A matrix unit's product into a zero accumulator, at the ideal values: that sum. -/
theorem matmul_zero_at {M K N : Nat} {φ₁ φ₂ : FTy} (l : FVec Ideal ⟨2, ![M, K]⟩ φ₁) (r : FVec Ideal ⟨2, ![N, K]⟩ φ₂)
    (a : Fin M) (b : Fin N) :
    FloatOps.matmul (DotDims.transposedRhs M K N) none l r (constant ⟨2, ![M, N]⟩ .f32 0x00000000#32) (ix2 a b)
      = ∑ k : Fin K, l (ix2 a k) * r (ix2 b k) :=
  (Ideal.matmul_constant_zero_apply _ none l r (ix2 a b)).trans (sum_at l r a b)

/-- The same for any dimension record that IS that one (a printed program names its own). -/
theorem matmul_zero_at_of_eq {M K N : Nat} {φ₁ φ₂ : FTy} (D : DotDims ⟨2, ![M, K]⟩ ⟨2, ![N, K]⟩ ⟨2, ![M, N]⟩)
    (hD : D = DotDims.transposedRhs M K N) (l : FVec Ideal ⟨2, ![M, K]⟩ φ₁) (r : FVec Ideal ⟨2, ![N, K]⟩ φ₂)
    (a : Fin M) (b : Fin N) :
    FloatOps.matmul D none l r (constant ⟨2, ![M, N]⟩ .f32 0x00000000#32) (ix2 a b)
      = ∑ k : Fin K, l (ix2 a k) * r (ix2 b k) := by
  subst hD
  exact matmul_zero_at l r a b

end Cert.RowsDot

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.LibRowMax.lean ====
/-
  A row maximum taken from `-∞`, read at an index, on the extended reals.

  The maximum along the second axis of an `[n, b]` array at row `p` is the fold of `max`, from the value of the pattern
  `0xFF800000` (`-∞`), over the `b` entries of that row — for a kernel's `vector.multi_reduction <maximumf>` with that
  accumulator and for the host's `stablehlo.reduce` with a maximum body from that initial value alike. The reduced
  index `p` with column `k` put back is `(p, k)`.
-/
import Idealize.ShloMosaic.Lib.ValueIdx
import Idealize.ShloMosaic.PureOps.Ideal.Laws

noncomputable section

namespace Cert.Lib.RowMax

open Idealize.ShloMosaic Idealize.ShloMosaic.ValueIdx

/-- The reduced index `p` with column `k` put back is `(p, k)`. -/
theorem lift_row {n b : ℕ} (hr : (⟨2, ![n, b]⟩ : Shape).Reduces [1] ⟨1, ![n]⟩) (p : Fin n)
    (k : Fin ((⟨2, ![n, b]⟩ : Shape).size 1)) : hr.lift (ix1 p) k = ix2 p (⟨k.val, k.isLt⟩ : Fin b) := by
  funext d; apply Fin.ext
  match d with
  | ⟨0, _⟩ => rfl
  | ⟨1, _⟩ => rfl

/-- A kernel's maximum along the second axis, at row `p`, is the fold of `max` from `-∞` over that row. -/
theorem rowmax_apply {a b : ℕ} (x : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] ⟨1, ![a]⟩ x 0xFF800000#32 h hφ hacc (ix1 p)
      = (Finset.univ : Finset (Fin b)).fold max (Ideal.ofBits .f32 0xFF800000#32) (fun k => x (ix2 p k)) := by
  refine (Ideal.multiReduction_maximumf_single x 0xFF800000#32 h hφ hacc (ix1 p)).trans ?_
  have hf : (x ∘ h.lift (ix1 p)) = fun k : Fin b => x (ix2 p k) := funext fun k => congrArg x (lift_row h p k)
  exact congrArg (fun f => Finset.fold max (Ideal.ofBits .f32 0xFF800000#32) f (Finset.univ : Finset (Fin b))) hf

/-- The host's reduce with a maximum body from `-∞` along the second axis, at row `p`, is the same fold. -/
theorem hostRowMax_apply {n b : ℕ} (z : FVec Ideal ⟨2, ![n, b]⟩ .f32) (hrt : (⟨2, ![n, b]⟩ : Shape).ReducesTo [1] ⟨1, ![n]⟩)
    (hr : (⟨2, ![n, b]⟩ : Shape).Reduces [1] ⟨1, ![n]⟩) (hu : 0 < (⟨0, ![]⟩ : Shape).numel) (p : Fin n) :
    Host.reduce FloatOps.maximumf z (constant (F := Ideal) ⟨0, ![]⟩ .f32 0xFF800000#32) hrt hu (ix1 p)
      = (Finset.univ : Finset (Fin b)).fold max (Ideal.ofBits .f32 0xFF800000#32) (fun k => z (ix2 p k)) := by
  rw [Host.reduce_eq_fold_single FloatOps.maximumf z _ hrt hr hu]
  have hf : (z ∘ hr.lift (ix1 p)) = fun k : Fin b => z (ix2 p k) := funext fun k => congrArg z (lift_row hr p k)
  exact congrArg (fun f => Finset.fold max (Ideal.ofBits .f32 0xFF800000#32) f (Finset.univ : Finset (Fin b))) hf

end Cert.Lib.RowMax

end
-- ==== Proof.LibKeepdimsColumn.lean ====
/-
  A row sum kept as a column, read at an index.

  `jnp.sum(x, axis=1, keepdims=True)` on an `[a, b]` array is a sum along the second axis into `[a]`, a recast of that to
  the column `[a, 1]`, and (where it meets an `[a, b]` operand) a broadcast of the column along the rows. Read at an
  index: the sum at row `p` is the sum of that row's `b` entries; the column at `(i, u)` is the sum at `i`; the broadcast
  at `(p, c)` is the column at `(p, 0)`. These are the column-shaped companions of the library's leading-unit-axis cast
  `[a] → [1, a]` and row broadcast `[1, b] → [a, b]`, stated over literal-extent index constructors so that they fire on
  coordinates of literal `Fin` types.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Lib

open Idealize.ShloMosaic Idealize.ShloMosaic.ValueIdx

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A sum along the second axis of an `[a, b]` array, at row `p`, is the sum of that row's `b` entries. -/
theorem rowsum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ x 0x00000000#32 h hφ hacc (ix1 p) = ∑ k : Fin b, x (ix2 p k) := by
  refine (Ideal.multiReduction_add_single x 0x00000000#32 h hφ hacc (ix1 p)).trans ?_
  refine Finset.sum_congr rfl fun k _ => congrArg x ?_
  funext d
  apply Fin.ext
  match d with
  | ⟨0, _⟩ => rfl
  | ⟨1, _⟩ => rfl

end Cert.Gcn.Lib

end
-- ==== Proof.AttnBody.lean ====
/-
  The attention region's body, read at an index.

  At one grid point the body holds a block of 256 query rows q : [1, 256, 64] and all 4096 key and value rows
  k, v : [1, 4096, 64] of one batch. Its first payload is the block of scores
      S[p, j] = (Σ_d q[0,p,d] · k[0,j,d]) · 1/8,
  its second the same block with the unit axis put back, and its third the block of outputs
      O[p, d] = (Σ_j exp (S[p,j] − max_j S[p,j]) · v[0,j,d]) / Σ_j exp (S[p,j] − max_j S[p,j]),
  the maximum folded from -∞ along the row. Changes of float format are the identity on the extended reals.
-/
import proofs.«112885_j28432683499824_2_alg».proof.Proof.Gen.KernelIdeal.Skeleton
import proofs.«112885_j28432683499824_2_alg».proof.Proof.Spec
import proofs.«112885_j28432683499824_2_alg».proof.Proof.LibRowsDot
import proofs.«112885_j28432683499824_2_alg».proof.Proof.LibPlainDot
import proofs.«112885_j28432683499824_2_alg».proof.Proof.LibRowMax
import proofs.«112885_j28432683499824_2_alg».proof.Proof.LibKeepdimsColumn
import Idealize.ShloMosaic.Lib.ValueLayout
import Idealize.ShloMosaic.Lib.Pipeline.Value

noncomputable section

namespace Cert.KernelIdeal.Attn

open Cert.KernelIdeal Cert.KernelIdeal.Gen
open Idealize.ShloMosaic Idealize.ShloMosaic.ValueIdx

/-- The scores of one block of query rows against every key row of the batch. -/
def blkScores (q : FVec Ideal S1x256x64 .bf16) (k : FVec Ideal S1x4096x64 .bf16) (p : Fin 256) (j : Fin 4096) : EReal :=
  (∑ d : Fin 64, q (ix3 (0 : Fin 1) p d) * k (ix3 (0 : Fin 1) j d)) * Cert.Attn.eighth

/-- The body's first payload at (p, j): the rows' product over the 64 head coordinates, times 1/8. -/
theorem pay1_apply (q : FVec Ideal S1x256x64 .bf16) (k : FVec Ideal S1x4096x64 .bf16) (p : Fin 256) (j : Fin 4096) :
    k1_pay1 (F := Ideal) q k (ix2 p j) = blkScores q k p j := by
  unfold k1_pay1 blkScores
  refine (mulf_apply _ _ _).trans ?_
  refine congrArg₂ (· * ·) ?_ rfl
  refine (Cert.RowsDot.matmul_zero_at_of_eq _ rfl _ _ p j).trans ?_
  refine Finset.sum_congr rfl fun d _ => ?_
  exact congrArg₂ (· * ·) (shapeCast_1ab_ab_apply q _ p d) (shapeCast_1ab_ab_apply k _ j d)

/-- The second payload is the first with the unit axis in front. -/
theorem pay2_apply (q : FVec Ideal S1x256x64 .bf16) (k : FVec Ideal S1x4096x64 .bf16) (u : Fin 1) (p : Fin 256) (j : Fin 4096) :
    k1_pay2 (F := Ideal) q k (ix3 u p j) = blkScores q k p j := by
  unfold k1_pay2
  exact (shapeCast_ab_1ab_apply _ _ u p j).trans (pay1_apply q k p j)

/-- exp (S − the row's maximum), as the body computes it from a block of scores: the maximum reduced along the row
    from -∞, kept as a column and spread back over the row. -/
def expBlk (S : FVec Ideal S256x4096 .f32) : FVec Ideal S256x4096 .f32 :=
  exp (subf S (broadcastTo S256x4096 (shapeCast S256x1 (multiReduction .maximumf [1] S256 S 0xFF800000#32 reduces_S256x4096_S256 (.inl rfl) rfl) shapeCasts_S256_S256x1) broadcasts_S256x1_S256x4096))

/-- At (p, j): exp of the entry minus the fold of max from -∞ over row p. -/
theorem expBlk_apply (S : FVec Ideal S256x4096 .f32) (p : Fin 256) (j : Fin 4096) :
    expBlk S (ix2 p j)
      = Ideal.exp (S (ix2 p j) - (Finset.univ : Finset (Fin 4096)).fold max Cert.Attn.negInf (fun j' => S (ix2 p j'))) := by
  unfold expBlk
  show Ideal.exp (S (ix2 p j) - broadcastTo S256x4096 _ _ (ix2 p j)) = _
  refine congrArg (fun z => Ideal.exp (S (ix2 p j) - z)) ?_
  refine (Cert.Gcn.Lib.broadcastTo_a1_ab_apply _ _ p j).trans ?_
  refine (Cert.Gcn.Lib.shapeCast_a_a1_apply _ _ p 0).trans ?_
  exact Cert.Lib.RowMax.rowmax_apply S _ _ _ p

/-- The body's third payload at (u, p, d): the row's weights times the values' column d, summed over the 4096 keys,
    divided by the row's sum of weights. -/
theorem pay3_apply (q : FVec Ideal S1x256x64 .bf16) (k v : FVec Ideal S1x4096x64 .bf16) (u : Fin 1) (p : Fin 256) (d : Fin 64) :
    k1_pay3 (F := Ideal) q k v (ix3 u p d)
      = Ideal.div (∑ j : Fin 4096, expBlk (k1_pay1 q k) (ix2 p j) * v (ix3 (0 : Fin 1) j d))
          (∑ j : Fin 4096, expBlk (k1_pay1 q k) (ix2 p j)) := by
  unfold k1_pay3
  refine (shapeCast_ab_1ab_apply _ _ u p d).trans ?_
  refine (divf_apply _ _ _).trans ?_
  refine congrArg₂ Ideal.div ?_ ?_
  · refine (congrFun (Cert.Lib.PlainDot.matmul_zero_eq _ rfl none _ _) (ix2 p d)).trans ?_
    refine (Cert.Lib.PlainDot.rowsByCols_apply _ _ _).trans ?_
    refine Finset.sum_congr rfl fun j _ => ?_
    exact congrArg₂ (· * ·) rfl (shapeCast_1ab_ab_apply v _ j d)
  · refine (Cert.Gcn.Lib.broadcastTo_a1_ab_apply _ _ p d).trans ?_
    refine (Cert.Gcn.Lib.shapeCast_a_a1_apply _ _ p 0).trans ?_
    exact Cert.Gcn.Lib.rowsum_apply _ _ _ _ p

end Cert.KernelIdeal.Attn

end
-- ==== Proof.AttnArray.lean ====
/-
  The attention region's two output arrays, as functions of the arrays the region finds.

  The region's grid is 4 batches × 16 tiles of 256 query rows. At point t the body reads rows
  [256·ti, 256·ti + 256) of batch b of q, and all of batch b of k and of v, and writes rows [256·ti, 256·ti + 256)
  of batch b of the scores and of the output. Entry (p, j) of the point's scores block is therefore entry
  (b, 256·ti + p, j) of `scores q k`, every row of the block is a whole row of the scores — so its maximum, its
  weights and their sum are the row's — and entry (p, d) of the output block is entry (b, 256·ti + p, d) of
  `attnK (scores q k) v`. The 64 blocks of each window tile its array, so after the run each array is that function.
-/
import proofs.«112885_j28432683499824_2_alg».proof.Proof.Gen.KernelIdeal.Frame
import proofs.«112885_j28432683499824_2_alg».proof.Proof.AttnBody
import proofs.«112885_j28432683499824_2_alg».proof.Proof.Spec
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Attn

open Cert.KernelIdeal Cert.KernelIdeal.Gen

variable (V : (c : Dev nD) → (b : Ref sig .tc) → Buf (Elt Ideal) ((c : Thread nD τ).loc b))

theorem hz3 : (![0, 0, 0] : Fin 3 → Nat) = fun _ => 0 := funext fun a => by fin_cases a <;> rfl

/-! ## The index maps, decided over the 64 grid points -/

/-- q, scores and output blocks move together over (batch, tile); the k and v blocks only over the batch. -/
theorem idx_facts : ∀ t : Fin cfg1.N,
    win1_0.index t 0 = win1_3.index t 0 ∧ win1_0.index t 1 = win1_3.index t 1 ∧ win1_0.index t 2 = 0
    ∧ win1_1.index t 0 = win1_3.index t 0 ∧ win1_1.index t 1 = 0 ∧ win1_1.index t 2 = 0
    ∧ win1_2.index t 0 = win1_3.index t 0 ∧ win1_2.index t 1 = 0 ∧ win1_2.index t 2 = 0
    ∧ win1_3.index t 2 = 0 ∧ win1_3.index t 0 ≤ 3 ∧ win1_3.index t 1 ≤ 15
    ∧ win1_4.index t 0 = win1_3.index t 0 ∧ win1_4.index t 1 = win1_3.index t 1 ∧ win1_4.index t 2 = 0 :=
  (by decide +kernel : ∀ t : Fin grid1.N, _)

/-- Every (batch, tile) is some point's. -/
theorem idx_onto3 : ∀ (q0 : Fin 4) (q1 : Fin 16), ∃ t : Fin cfg1.N, win1_3.index t = ![q0.val, q1.val, 0] :=
  (by decide +kernel : ∀ (q0 : Fin 4) (q1 : Fin 16), ∃ t : Fin grid1.N, win1_3.index t = ![q0.val, q1.val, 0])
theorem idx_onto4 : ∀ (q0 : Fin 4) (q1 : Fin 16), ∃ t : Fin cfg1.N, win1_4.index t = ![q0.val, q1.val, 0] :=
  (by decide +kernel : ∀ (q0 : Fin 4) (q1 : Fin 16), ∃ t : Fin grid1.N, win1_4.index t = ![q0.val, q1.val, 0])

/-! ## Each input block read as its array: an element sits at block index × block size + its coordinate -/

theorem qblk_apply (c : Dev nD) (t : Fin cfg1.N) (x : S1x256x64.Idx) (i : S4x4096x64.Idx)
    (h0 : (i 0).val = win1_0.index t 0 * 1 + 1 * (x 0).val) (h1 : (i 1).val = win1_0.index t 1 * 256 + 1 * (x 1).val)
    (h2 : (i 2).val = win1_0.index t 2 * 64 + 1 * (x 2).val) :
    (iblk1 V c 0 t : FVec Ideal S1x256x64 .bf16) x = (V c main_v0_0 : S4x4096x64.Idx → EReal) i := by
  unfold iblk1
  rw [View.read_apply]
  show V c main_v0_0 _ = V c main_v0_0 _
  refine congrArg (V c main_v0_0) ?_
  funext a; apply Fin.ext
  match a with
  | ⟨0, _⟩ => exact h0.symm
  | ⟨1, _⟩ => exact h1.symm
  | ⟨2, _⟩ => exact h2.symm

theorem kblk_apply (c : Dev nD) (t : Fin cfg1.N) (x : S1x4096x64.Idx) (i : S4x4096x64.Idx)
    (h0 : (i 0).val = win1_1.index t 0 * 1 + 1 * (x 0).val) (h1 : (i 1).val = win1_1.index t 1 * 4096 + 1 * (x 1).val)
    (h2 : (i 2).val = win1_1.index t 2 * 64 + 1 * (x 2).val) :
    (iblk1 V c 1 t : FVec Ideal S1x4096x64 .bf16) x = (V c main_v0_1 : S4x4096x64.Idx → EReal) i := by
  unfold iblk1
  rw [View.read_apply]
  show V c main_v0_1 _ = V c main_v0_1 _
  refine congrArg (V c main_v0_1) ?_
  funext a; apply Fin.ext
  match a with
  | ⟨0, _⟩ => exact h0.symm
  | ⟨1, _⟩ => exact h1.symm
  | ⟨2, _⟩ => exact h2.symm

theorem vblk_apply (c : Dev nD) (t : Fin cfg1.N) (x : S1x4096x64.Idx) (i : S4x4096x64.Idx)
    (h0 : (i 0).val = win1_2.index t 0 * 1 + 1 * (x 0).val) (h1 : (i 1).val = win1_2.index t 1 * 4096 + 1 * (x 1).val)
    (h2 : (i 2).val = win1_2.index t 2 * 64 + 1 * (x 2).val) :
    (iblk1 V c 2 t : FVec Ideal S1x4096x64 .bf16) x = (V c main_v0_2 : S4x4096x64.Idx → EReal) i := by
  unfold iblk1
  rw [View.read_apply]
  show V c main_v0_2 _ = V c main_v0_2 _
  refine congrArg (V c main_v0_2) ?_
  funext a; apply Fin.ext
  match a with
  | ⟨0, _⟩ => exact h0.symm
  | ⟨1, _⟩ => exact h1.symm
  | ⟨2, _⟩ => exact h2.symm

/-! ## The point's scores block is its rows of the scores -/

/-- Entry (p, j) of point t's block of scores is the scores' entry at batch = the point's batch, query row = the tile's
    offset + p, key = j. -/
theorem scores_at (c : Dev nD) (t : Fin cfg1.N) (p : Fin 256) (j : Fin 4096) (e : S4x4096x4096.Idx)
    (h0 : (e 0).val = win1_3.index t 0) (h1 : (e 1).val = win1_3.index t 1 * 256 + p.val) (h2 : (e 2).val = j.val) :
    blkScores (iblk1 V c 0 t) (iblk1 V c 1 t) p j = Cert.Attn.scores (V c main_v0_0) (V c main_v0_1) e := by
  obtain ⟨e00, e01, e02, e10, e11, e12, e20, e21, e22, e32, b0, b1, e40, e41, e42⟩ := idx_facts t
  unfold blkScores Cert.Attn.scores
  refine congrArg (· * Cert.Attn.eighth) (Finset.sum_congr rfl fun d _ => congrArg₂ (· * ·) ?_ ?_)
  · refine qblk_apply V c t _ _ ?_ ?_ ?_
    · show (e 0).val = win1_0.index t 0 * 1 + 1 * 0; omega
    · show (e 1).val = win1_0.index t 1 * 256 + 1 * p.val; omega
    · show d.val = win1_0.index t 2 * 64 + 1 * d.val; omega
  · refine kblk_apply V c t _ _ ?_ ?_ ?_
    · show (e 0).val = win1_1.index t 0 * 1 + 1 * 0; omega
    · show (e 2).val = win1_1.index t 1 * 4096 + 1 * j.val; omega
    · show d.val = win1_1.index t 2 * 64 + 1 * d.val; omega

/-! ## From a block's rows to the row's softmax weights -/

/-- If row p of a block of scores is row (b, i) of the scores, the block's weights along it are that row's. -/
theorem expBlk_eq (Sb : FVec Ideal S256x4096 .f32) (S : Cert.Attn.SS.Idx → EReal) (p : Fin 256) (b : Fin 4) (i : Fin 4096)
    (h : ∀ j, Sb (ix2 p j) = S (ix3 b i j)) (j : Fin 4096) : expBlk Sb (ix2 p j) = Cert.Attn.expw S b i j := by
  rw [expBlk_apply]
  unfold Cert.Attn.expw Cert.Attn.rowMax
  rw [h j, show (fun j' => Sb (ix2 p j')) = fun j' => S (ix3 b i j') from funext h]

/-- The output block's entry — the weighted sum of the values' column over the row's sum of weights — is the
    attention output's entry, when the block's row is the scores' row and the values' column is read in place. -/
theorem out_entry (Sb : FVec Ideal S256x4096 .f32) (S : Cert.Attn.SS.Idx → EReal) (vb : FVec Ideal S1x4096x64 .bf16)
    (Vv : Cert.Attn.SP.Idx → EReal) (p : Fin 256) (d : Fin 64) (e : Cert.Attn.SP.Idx)
    (h : ∀ j, Sb (ix2 p j) = S (ix3 (e 0) (e 1) j)) (hv : ∀ j, vb (ix3 (0 : Fin 1) j d) = Vv (ix3 (e 0) j (e 2))) :
    Ideal.div (∑ j : Fin 4096, expBlk Sb (ix2 p j) * vb (ix3 (0 : Fin 1) j d)) (∑ j : Fin 4096, expBlk Sb (ix2 p j))
      = Cert.Attn.attnK S Vv e := by
  unfold Cert.Attn.attnK Cert.Attn.denom
  refine congrArg₂ Ideal.div (Finset.sum_congr rfl fun j _ => ?_) (Finset.sum_congr rfl fun j _ => expBlk_eq Sb S p (e 0) (e 1) h j)
  rw [expBlk_eq Sb S p (e 0) (e 1) h j, hv j]

/-! ## What each point writes back -/

/-- Point t writes back its block of `scores q k`. -/
theorem flushed3_eq (c : Dev nD) (t : Fin cfg1.N) :
    (dat1 V c).flushed 3 t = ((cfg1.win 3).blk t).view.read (Elt Ideal) (Cert.Attn.scores (V c main_v0_0) (V c main_v0_1)) := by
  show (cfg1.win 3).cut (grid1.coords t) ((dat1 V c).after 3 t) = _
  rw [after1_3]
  unfold out1_3
  rw [View.canon_unit_zero hz3]
  simp only [View.ld_unit_zero (S := S1x256x64) hz3, View.ld_unit_zero (S := S1x4096x64) hz3]
  funext y
  show k1_pay2 (F := Ideal) (iblk1 V c 0 t) (iblk1 V c 1 t) y
    = Cert.Attn.scores (V c main_v0_0) (V c main_v0_1) (((cfg1.win 3).blk t).view.emb y)
  refine (congrArg (k1_pay2 (F := Ideal) (iblk1 V c 0 t) (iblk1 V c 1 t)) (eq_ix3 y)).trans ?_
  refine (pay2_apply _ _ (y 0) (y 1) (y 2)).trans ?_
  obtain ⟨e00, e01, e02, e10, e11, e12, e20, e21, e22, e32, b0, b1, e40, e41, e42⟩ := idx_facts t
  have hy0 : (y 0).val = 0 := by have h : (y 0).val < 1 := (y 0).isLt; omega
  refine scores_at V c t (y 1) (y 2) _ ?_ ?_ ?_
  · show win1_3.index t 0 * 1 + 1 * (y 0).val = win1_3.index t 0; omega
  · show win1_3.index t 1 * 256 + 1 * (y 1).val = win1_3.index t 1 * 256 + (y 1).val; omega
  · show win1_3.index t 2 * 4096 + 1 * (y 2).val = (y 2).val; omega

/-- Point t writes back its block of `attnK (scores q k) v`. -/
theorem flushed4_eq (c : Dev nD) (t : Fin cfg1.N) :
    (dat1 V c).flushed 4 t = ((cfg1.win 4).blk t).view.read (Elt Ideal)
      (Cert.Attn.attnK (Cert.Attn.scores (V c main_v0_0) (V c main_v0_1)) (V c main_v0_2)) := by
  show (cfg1.win 4).cut (grid1.coords t) ((dat1 V c).after 4 t) = _
  rw [after1_4]
  unfold out1_4
  rw [View.canon_unit_zero hz3]
  simp only [View.ld_unit_zero (S := S1x256x64) hz3, View.ld_unit_zero (S := S1x4096x64) hz3]
  funext y
  show k1_pay3 (F := Ideal) (iblk1 V c 0 t) (iblk1 V c 1 t) (iblk1 V c 2 t) y
    = Cert.Attn.attnK (Cert.Attn.scores (V c main_v0_0) (V c main_v0_1)) (V c main_v0_2) (((cfg1.win 4).blk t).view.emb y)
  refine (congrArg (k1_pay3 (F := Ideal) (iblk1 V c 0 t) (iblk1 V c 1 t) (iblk1 V c 2 t)) (eq_ix3 y)).trans ?_
  refine (pay3_apply _ _ _ (y 0) (y 1) (y 2)).trans ?_
  obtain ⟨e00, e01, e02, e10, e11, e12, e20, e21, e22, e32, b0, b1, e40, e41, e42⟩ := idx_facts t
  have hy0 : (y 0).val = 0 := by have h : (y 0).val < 1 := (y 0).isLt; omega
  refine out_entry _ _ _ _ (y 1) (y 2) _ (fun j => ?_) (fun j => ?_)
  · refine (pay1_apply _ _ (y 1) j).trans (scores_at V c t (y 1) j _ ?_ ?_ rfl)
    · show win1_4.index t 0 * 1 + 1 * (y 0).val = win1_3.index t 0; omega
    · show win1_4.index t 1 * 256 + 1 * (y 1).val = win1_3.index t 1 * 256 + (y 1).val; omega
  · refine vblk_apply V c t _ _ ?_ ?_ ?_
    · show win1_4.index t 0 * 1 + 1 * (y 0).val = win1_2.index t 0 * 1 + 1 * 0; omega
    · show j.val = win1_2.index t 1 * 4096 + 1 * j.val; omega
    · show win1_4.index t 2 * 64 + 1 * (y 2).val = win1_2.index t 2 * 64 + 1 * (y 2).val; omega

/-! ## The blocks tile the arrays -/

theorem mem_blk3 (t : Fin cfg1.N) (i : S4x4096x4096.Idx) :
    i ∈ ((cfg1.win 3).blk t).view.set ↔ ∀ a : Fin 3, win1_3.index t a * S1x256x4096.size a ≤ (i a).val ∧ (i a).val < win1_3.index t a * S1x256x4096.size a + S1x256x4096.size a := by
  show i ∈ ((View.whole main_v1_0).slice (win1_3.rect t)).set ↔ _
  rw [View.set_slice_whole, Rect.mem_set_unit]
  exact Iff.rfl

theorem mem_blk4 (t : Fin cfg1.N) (i : S4x4096x64.Idx) :
    i ∈ ((cfg1.win 4).blk t).view.set ↔ ∀ a : Fin 3, win1_4.index t a * S1x256x64.size a ≤ (i a).val ∧ (i a).val < win1_4.index t a * S1x256x64.size a + S1x256x64.size a := by
  show i ∈ ((View.whole main_v1_1).slice (win1_4.rect t)).set ↔ _
  rw [View.set_slice_whole, Rect.mem_set_unit]
  exact Iff.rfl

/-- Entry (b, i, j) of the scores array is in the block of the point at batch b, tile i / 256. -/
theorem cover3 (i : S4x4096x4096.Idx) : ∃ t : Fin cfg1.N, (cfg1.win 3).flush t = true ∧ i ∈ ((cfg1.win 3).blk t).view.set := by
  have hi0 : (i 0).val < 4 := (i 0).isLt
  have hi1 : (i 1).val < 4096 := (i 1).isLt
  have hi2 : (i 2).val < 4096 := (i 2).isLt
  obtain ⟨t, ht⟩ := idx_onto3 ⟨(i 0).val, hi0⟩ ⟨(i 1).val / 256, by omega⟩
  have q0 : win1_3.index t 0 = (i 0).val := congrFun ht 0
  have q1 : win1_3.index t 1 = (i 1).val / 256 := congrFun ht 1
  have q2 : win1_3.index t 2 = 0 := congrFun ht 2
  refine ⟨t, flush1_3 t, ?_⟩
  rw [mem_blk3]
  intro a
  match a with
  | ⟨0, _⟩ => show win1_3.index t 0 * 1 ≤ (i 0).val ∧ (i 0).val < win1_3.index t 0 * 1 + 1; omega
  | ⟨1, _⟩ => show win1_3.index t 1 * 256 ≤ (i 1).val ∧ (i 1).val < win1_3.index t 1 * 256 + 256; omega
  | ⟨2, _⟩ => show win1_3.index t 2 * 4096 ≤ (i 2).val ∧ (i 2).val < win1_3.index t 2 * 4096 + 4096; omega

/-- Entry (b, i, d) of the output array is in the block of the point at batch b, tile i / 256. -/
theorem cover4 (i : S4x4096x64.Idx) : ∃ t : Fin cfg1.N, (cfg1.win 4).flush t = true ∧ i ∈ ((cfg1.win 4).blk t).view.set := by
  have hi0 : (i 0).val < 4 := (i 0).isLt
  have hi1 : (i 1).val < 4096 := (i 1).isLt
  have hi2 : (i 2).val < 64 := (i 2).isLt
  obtain ⟨t, ht⟩ := idx_onto4 ⟨(i 0).val, hi0⟩ ⟨(i 1).val / 256, by omega⟩
  have q0 : win1_4.index t 0 = (i 0).val := congrFun ht 0
  have q1 : win1_4.index t 1 = (i 1).val / 256 := congrFun ht 1
  have q2 : win1_4.index t 2 = 0 := congrFun ht 2
  refine ⟨t, flush1_4 t, ?_⟩
  rw [mem_blk4]
  intro a
  match a with
  | ⟨0, _⟩ => show win1_4.index t 0 * 1 ≤ (i 0).val ∧ (i 0).val < win1_4.index t 0 * 1 + 1; omega
  | ⟨1, _⟩ => show win1_4.index t 1 * 256 ≤ (i 1).val ∧ (i 1).val < win1_4.index t 1 * 256 + 256; omega
  | ⟨2, _⟩ => show win1_4.index t 2 * 64 ≤ (i 2).val ∧ (i 2).val < win1_4.index t 2 * 64 + 64; omega

/-! ## The arrays after the region -/

/-- The scores array after the region is `scores` of the q and k arrays the region found. -/
theorem scores_array (c : Dev nD) :
    (dat1 V c).arrAt 3 cfg1.N = Cert.Attn.scores (V c main_v0_0) (V c main_v0_1) :=
  (dat1 V c).arrAt_eq_of_cover 3 _ (fun t _ => flushed3_eq V c t) cover3

/-- The output array after the region is `attnK` of those scores and of the v array the region found. -/
theorem out_array (c : Dev nD) :
    (dat1 V c).arrAt 4 cfg1.N = Cert.Attn.attnK (Cert.Attn.scores (V c main_v0_0) (V c main_v0_1)) (V c main_v0_2) :=
  (dat1 V c).arrAt_eq_of_cover 4 _ (fun t _ => flushed4_eq V c t) cover4

end Cert.KernelIdeal.Attn

end
-- ==== Proof.ProjBody.lean ====
/-
  The projection region's body, read at an index.

  At one grid point the body holds a block of 1024 rows of each activation array, x : [1, 1024, 1024], and a
  projection's whole weight matrix W : [1024, 64] and bias b : [64]. Each of its three results is the block
      P[r, d] = (Σ_h x[0,r,h] · W[h,d]) + b[d],
  computed as a plain matrix product of the block (its unit axis dropped) by W into a zero accumulator, plus the bias
  recast to a row [1, 64] and spread over the 1024 rows; the stored block puts the unit axis back, [1, 1024, 64].
  Changes of float format are the identity on the extended reals, so they do not appear in the value.
-/
import proofs.«112885_j28432683499824_2_alg».proof.Proof.Gen.KernelIdeal.Skeleton
import proofs.«112885_j28432683499824_2_alg».proof.Proof.Spec
import proofs.«112885_j28432683499824_2_alg».proof.Proof.LibPlainDot
import proofs.«112885_j28432683499824_2_alg».proof.Proof.LibKeepdimsColumn
import Idealize.ShloMosaic.Lib.ValueLayout
import Idealize.ShloMosaic.Lib.Pipeline.Value

noncomputable section

namespace Cert.KernelIdeal.Proj

open Cert.KernelIdeal Cert.KernelIdeal.Gen
open Idealize.ShloMosaic Idealize.ShloMosaic.ValueIdx

/-- One block of a projection: entry (r, d) is Σ_h x[0,r,h] · W[h,d] + b[d]. -/
def blkProj (x : FVec Ideal S1x1024x1024 .f32) (w : FVec Ideal S1024x64 .f32) (b : FVec Ideal S64 .f32)
    (r : Fin 1024) (d : Fin 64) : EReal :=
  (∑ h : Fin 1024, x (ix3 (0 : Fin 1) r h) * w (ix2 h d)) + b (ix1 d)

/-- The first [1024, 64] sum of the body at (r, d): the block's row r times W's column d, plus the bias at d. -/
theorem sumK_apply (x : FVec Ideal S1x1024x1024 .f32) (w : FVec Ideal S1024x64 .f32) (b : FVec Ideal S64 .f32)
    (r : Fin 1024) (d : Fin 64) : k0_pay3 (F := Ideal) x w b (ix2 r d) = blkProj x w b r d := by
  unfold k0_pay3 blkProj
  refine (addf_apply _ _ _).trans ?_
  refine congrArg₂ (· + ·) ?_ ?_
  · refine (congrFun (Cert.Lib.PlainDot.matmul_zero_eq _ rfl none _ _) (ix2 r d)).trans ?_
    refine (Cert.Lib.PlainDot.rowsByCols_apply _ _ _).trans ?_
    refine Finset.sum_congr rfl fun h _ => ?_
    exact congrArg₂ (· * ·) (shapeCast_1ab_ab_apply x _ r h) rfl
  · refine (broadcastTo_1b_ab_apply _ _ r d).trans ?_
    exact shapeCast_a_1a_apply b _ 0 d

/-- The second [1024, 64] sum of the body at (r, d): the same expression of its own three operands. -/
theorem sumV_apply (x : FVec Ideal S1x1024x1024 .f32) (w : FVec Ideal S1024x64 .f32) (b : FVec Ideal S64 .f32)
    (r : Fin 1024) (d : Fin 64) : k0_pay4 (F := Ideal) x w b (ix2 r d) = blkProj x w b r d := by
  unfold k0_pay4 blkProj
  refine (addf_apply _ _ _).trans ?_
  refine congrArg₂ (· + ·) ?_ ?_
  · refine (congrFun (Cert.Lib.PlainDot.matmul_zero_eq _ rfl none _ _) (ix2 r d)).trans ?_
    refine (Cert.Lib.PlainDot.rowsByCols_apply _ _ _).trans ?_
    refine Finset.sum_congr rfl fun h _ => ?_
    exact congrArg₂ (· * ·) (shapeCast_1ab_ab_apply x _ r h) rfl
  · refine (broadcastTo_1b_ab_apply _ _ r d).trans ?_
    exact shapeCast_a_1a_apply b _ 0 d

/-- The stored block of the first projection at (u, r, d), whatever the unit coordinate u. -/
theorem payQ_apply (x : FVec Ideal S1x1024x1024 .f32) (w : FVec Ideal S1024x64 .f32) (b : FVec Ideal S64 .f32)
    (u : Fin 1) (r : Fin 1024) (d : Fin 64) : k0_pay5 (F := Ideal) x w b (ix3 u r d) = blkProj x w b r d := by
  unfold k0_pay5 blkProj
  refine (shapeCast_ab_1ab_apply _ _ u r d).trans ?_
  refine (truncf_apply (φ := .f32) (ψ := .bf16) _ bitsLt_bf16_f32 (ix2 r d)).trans ?_
  refine (addf_apply _ _ _).trans ?_
  refine congrArg₂ (· + ·) ?_ ?_
  · refine (congrFun (Cert.Lib.PlainDot.matmul_zero_eq _ rfl none _ _) (ix2 r d)).trans ?_
    refine (Cert.Lib.PlainDot.rowsByCols_apply _ _ _).trans ?_
    refine Finset.sum_congr rfl fun h _ => ?_
    exact congrArg₂ (· * ·) (shapeCast_1ab_ab_apply x _ r h) rfl
  · refine (broadcastTo_1b_ab_apply _ _ r d).trans ?_
    exact shapeCast_a_1a_apply b _ 0 d

/-- The stored block of the second projection: the first sum with the unit axis put back. -/
theorem payK_apply (x : FVec Ideal S1x1024x1024 .f32) (w : FVec Ideal S1024x64 .f32) (b : FVec Ideal S64 .f32)
    (u : Fin 1) (r : Fin 1024) (d : Fin 64) :
    k0_pay1 (F := Ideal) (k0_pay3 x w b) (ix3 u r d) = blkProj x w b r d := by
  unfold k0_pay1
  refine (shapeCast_ab_1ab_apply _ _ u r d).trans ?_
  refine (truncf_apply (φ := .f32) (ψ := .bf16) _ bitsLt_bf16_f32 (ix2 r d)).trans ?_
  exact sumK_apply x w b r d

/-- The stored block of the third projection: the second sum with the unit axis put back. -/
theorem payV_apply (x : FVec Ideal S1x1024x1024 .f32) (w : FVec Ideal S1024x64 .f32) (b : FVec Ideal S64 .f32)
    (u : Fin 1) (r : Fin 1024) (d : Fin 64) :
    k0_pay2 (F := Ideal) (k0_pay4 x w b) (ix3 u r d) = blkProj x w b r d := by
  unfold k0_pay2
  refine (shapeCast_ab_1ab_apply _ _ u r d).trans ?_
  refine (truncf_apply (φ := .f32) (ψ := .bf16) _ bitsLt_bf16_f32 (ix2 r d)).trans ?_
  exact sumV_apply x w b r d

end Cert.KernelIdeal.Proj

end
-- ==== Proof.ProjArrayQ.lean ====
/-
  The first projection's output array after the projection region, as one function of the region's input arrays.

  The region runs over a 4 × 4 grid. At grid point (b, j) the body holds the block of rows 1024·j … 1024·j + 1023 of
  batch b of the activations x_q : [4, 4096, 1024], the whole weight matrix W_q : [1024, 64] and the whole bias
  b_q : [64], and writes the block of the same rows of batch b of the output [4, 4096, 64]. The block it writes is
  (Σ_h x[0,r,h] · W[h,d]) + bias[d] of its loads, which is the block of `Cert.Attn.proj` of the arrays at those rows;
  the sixteen blocks tile the output, so the array ends as `Cert.Attn.proj` of the three arrays.
-/
import proofs.«112885_j28432683499824_2_alg».proof.Proof.Gen.KernelIdeal.Frame
import proofs.«112885_j28432683499824_2_alg».proof.Proof.Spec
import proofs.«112885_j28432683499824_2_alg».proof.Proof.ProjBody
import Idealize.ShloMosaic.Lib.Pipeline.Value

noncomputable section

namespace Cert.KernelIdeal.Proj

open Cert.KernelIdeal Cert.KernelIdeal.Gen Idealize.ShloMosaic Idealize.ShloMosaic.TcCoe Idealize.SL.Sem
open Idealize.ShloMosaic.ValueIdx
open Idealize.ShloMosaic.Pipeline (Dat)

-- the buffer contents when the projection region is entered
variable (V : (c : Dev nD) → (b : Ref sig .tc) → Buf (Elt Ideal) ((c : Thread nD τ).loc b))

/-- Zero offsets, as the rectangles of the body's whole-buffer loads and stores spell them. -/
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

theorem idx_facts9 : ∀ t : Fin cfg0.N,
    win0_0.index t 0 = win0_9.index t 0 ∧ win0_0.index t 1 = win0_9.index t 1 ∧ win0_0.index t 2 = 0
    ∧ win0_9.index t 2 = 0 ∧ win0_3.index t 0 = 0 ∧ win0_3.index t 1 = 0 ∧ win0_4.index t 0 = 0
    ∧ win0_9.index t 0 ≤ 3 ∧ win0_9.index t 1 ≤ 3 :=
  (by decide +kernel : ∀ t : Fin grid0.N, _)

theorem idx_onto9 : ∀ (q0 : Fin 4) (q1 : Fin 4), ∃ t : Fin cfg0.N, win0_9.index t = ![q0.val, q1.val, 0] :=
  (by decide +kernel : ∀ (q0 : Fin 4) (q1 : Fin 4), ∃ t : Fin grid0.N, win0_9.index t = ![q0.val, q1.val, 0])

/-- A block of the first activations read at a block index is the array read at the index the block's rectangle names. -/
theorem xblk0_apply (c : Dev nD) (t : Fin cfg0.N) (x : S1x1024x1024.Idx) (k : S4x4096x1024.Idx)
    (hk0 : (k 0).val = win0_0.index t 0 * 1 + 1 * (x 0).val) (hk1 : (k 1).val = win0_0.index t 1 * 1024 + 1 * (x 1).val)
    (hk2 : (k 2).val = win0_0.index t 2 * 1024 + 1 * (x 2).val) :
    (iblk0 V c 0 t : Vec Ideal S1x1024x1024 .f32) x = (V c main_arg0 : S4x4096x1024.Idx → EReal) k := by
  unfold iblk0
  rw [View.read_apply]
  show (V c main_arg0 : S4x4096x1024.Idx → EReal) _ = _
  refine congrArg _ (funext fun a => Fin.ext ?_)
  match a with
  | ⟨0, _⟩ => exact hk0.symm
  | ⟨1, _⟩ => exact hk1.symm
  | ⟨2, _⟩ => exact hk2.symm

/-- The first weight matrix's window is the whole matrix. -/
theorem wblk3_apply (c : Dev nD) (t : Fin cfg0.N) (x : S1024x64.Idx) (k : S1024x64.Idx)
    (hk0 : (k 0).val = win0_3.index t 0 * 1024 + 1 * (x 0).val) (hk1 : (k 1).val = win0_3.index t 1 * 64 + 1 * (x 1).val) :
    (iblk0 V c 3 t : Vec Ideal S1024x64 .f32) x = (V c main_arg3 : S1024x64.Idx → EReal) k := by
  unfold iblk0
  rw [View.read_apply]
  show (V c main_arg3 : S1024x64.Idx → EReal) _ = _
  refine congrArg _ (funext fun a => Fin.ext ?_)
  match a with
  | ⟨0, _⟩ => exact hk0.symm
  | ⟨1, _⟩ => exact hk1.symm

/-- The first bias vector's window is the whole vector. -/
theorem bblk4_apply (c : Dev nD) (t : Fin cfg0.N) (x : S64.Idx) (k : S64.Idx)
    (hk0 : (k 0).val = win0_4.index t 0 * 64 + 1 * (x 0).val) :
    (iblk0 V c 4 t : Vec Ideal S64 .f32) x = (V c main_arg4 : S64.Idx → EReal) k := by
  unfold iblk0
  rw [View.read_apply]
  show (V c main_arg4 : S64.Idx → EReal) _ = _
  refine congrArg _ (funext fun a => Fin.ext ?_)
  match a with
  | ⟨0, _⟩ => exact hk0.symm

/-- What a grid point writes back to the first projection's array is that point's block of `proj` of the
    arguments: the block's row r is row (block index · 1024 + r) of the array, the weights and bias are whole. -/
theorem flushed9_eq (c : Dev nD) (t : Fin cfg0.N) :
    (dat0 V c).flushed 9 t = ((cfg0.win 9).blk t).view.read (Elt Ideal)
      (Cert.Attn.proj (V c main_arg0) (V c main_arg3) (V c main_arg4)) := by
  show (cfg0.win 9).cut (grid0.coords t) ((dat0 V c).after 9 t) = _
  rw [after0_9]
  unfold out0_9
  rw [View.canon_unit_zero hz3]
  simp only [View.ld_unit_zero (S := S1x1024x1024) hz3, View.ld_unit_zero (S := S1024x64) hz2, View.ld_unit_zero (S := S64) hz1]
  obtain ⟨e0, e1, e2, e3, e4, e5, e6, e7, e8⟩ := idx_facts9 t
  funext y
  obtain ⟨u, r, d, rfl⟩ : ∃ u r d, y = ix3 u r d := ⟨y 0, y 1, y 2, eq_ix3 y⟩
  refine (payQ_apply _ _ _ u r d).trans ?_
  unfold blkProj
  rw [View.read_apply]
  show _ = Cert.Attn.proj (V c main_arg0) (V c main_arg3) (V c main_arg4) _
  unfold Cert.Attn.proj
  have hu : u.val = 0 := by have h : u.val < 1 := u.isLt; omega
  refine congrArg₂ (· + ·) (Finset.sum_congr rfl fun h _ => congrArg₂ (· * ·) ?_ ?_) ?_
  · refine xblk0_apply V c t _ _ ?_ ?_ ?_
    · show win0_9.index t 0 * 1 + 1 * u.val = win0_0.index t 0 * 1 + 1 * 0
      omega
    · show win0_9.index t 1 * 1024 + 1 * r.val = win0_0.index t 1 * 1024 + 1 * r.val
      omega
    · show h.val = win0_0.index t 2 * 1024 + 1 * h.val
      omega
  · refine wblk3_apply V c t _ _ ?_ ?_
    · show h.val = win0_3.index t 0 * 1024 + 1 * h.val
      omega
    · show win0_9.index t 2 * 64 + 1 * d.val = win0_3.index t 1 * 64 + 1 * d.val
      omega
  · refine bblk4_apply V c t _ _ ?_
    show win0_9.index t 2 * 64 + 1 * d.val = win0_4.index t 0 * 64 + 1 * d.val
    omega

/-- An index of the first projection's array is in a point's block iff each coordinate is in the block's range. -/
theorem mem_blk9 (t : Fin cfg0.N) (i : S4x4096x64.Idx) :
    i ∈ ((cfg0.win 9).blk t).view.set ↔ ∀ a : Fin 3, win0_9.index t a * S1x1024x64.size a ≤ (i a).val
      ∧ (i a).val < win0_9.index t a * S1x1024x64.size a + S1x1024x64.size a := by
  show i ∈ ((View.whole main_v0_0).slice (win0_9.rect t)).set ↔ _
  rw [View.set_slice_whole, Rect.mem_set_unit]
  exact Iff.rfl

/-- Every index (b, s, d) of the array is in the block of the point with block index (b, s / 1024, 0). -/
theorem cover9 (i : S4x4096x64.Idx) :
    ∃ t : Fin cfg0.N, (cfg0.win 9).flush t = true ∧ i ∈ ((cfg0.win 9).blk t).view.set := by
  have hi0 : (i 0).val < 4 := (i 0).isLt
  have hi1 : (i 1).val < 4096 := (i 1).isLt
  have hi2 : (i 2).val < 64 := (i 2).isLt
  obtain ⟨t, ht⟩ := idx_onto9 ⟨(i 0).val, hi0⟩ ⟨(i 1).val / 1024, by omega⟩
  have q0 : win0_9.index t 0 = (i 0).val := congrFun ht 0
  have q1 : win0_9.index t 1 = (i 1).val / 1024 := congrFun ht 1
  have q2 : win0_9.index t 2 = 0 := congrFun ht 2
  refine ⟨t, flush0_9 t, ?_⟩
  rw [mem_blk9]
  intro a
  match a with
  | ⟨0, _⟩ => show win0_9.index t 0 * 1 ≤ (i 0).val ∧ (i 0).val < win0_9.index t 0 * 1 + 1; omega
  | ⟨1, _⟩ => show win0_9.index t 1 * 1024 ≤ (i 1).val ∧ (i 1).val < win0_9.index t 1 * 1024 + 1024; omega
  | ⟨2, _⟩ => show win0_9.index t 2 * 64 ≤ (i 2).val ∧ (i 2).val < win0_9.index t 2 * 64 + 64; omega

/-- The first projection's array after the region is `proj` of the first activations, weights and bias. -/
theorem q_array (c : Dev nD) :
    (dat0 V c).arrAt 9 cfg0.N = Cert.Attn.proj (V c main_arg0) (V c main_arg3) (V c main_arg4) :=
  (dat0 V c).arrAt_eq_of_cover 9 _ (fun t _ => flushed9_eq V c t) cover9

end Cert.KernelIdeal.Proj

end
-- ==== Proof.ProjArrayK.lean ====
/-
  The second projection's output array after the projection region, as one function of the region's input arrays.

  The region runs over a 4 × 4 grid. At grid point (b, j) the body holds the block of rows 1024·j … 1024·j + 1023 of
  batch b of the activations x_k : [4, 4096, 1024], the whole weight matrix W_k : [1024, 64] and the whole bias
  b_k : [64], and writes the block of the same rows of batch b of the output [4, 4096, 64]. The block it writes is
  (Σ_h x[0,r,h] · W[h,d]) + bias[d] of its loads, which is the block of `Cert.Attn.proj` of the arrays at those rows;
  the sixteen blocks tile the output, so the array ends as `Cert.Attn.proj` of the three arrays.
-/
import proofs.«112885_j28432683499824_2_alg».proof.Proof.ProjArrayQ

noncomputable section

namespace Cert.KernelIdeal.Proj

open Cert.KernelIdeal Cert.KernelIdeal.Gen Idealize.ShloMosaic Idealize.ShloMosaic.TcCoe Idealize.SL.Sem
open Idealize.ShloMosaic.ValueIdx
open Idealize.ShloMosaic.Pipeline (Dat)

-- the buffer contents when the projection region is entered
variable (V : (c : Dev nD) → (b : Ref sig .tc) → Buf (Elt Ideal) ((c : Thread nD τ).loc b))

theorem idx_facts10 : ∀ t : Fin cfg0.N,
    win0_1.index t 0 = win0_10.index t 0 ∧ win0_1.index t 1 = win0_10.index t 1 ∧ win0_1.index t 2 = 0
    ∧ win0_10.index t 2 = 0 ∧ win0_5.index t 0 = 0 ∧ win0_5.index t 1 = 0 ∧ win0_6.index t 0 = 0
    ∧ win0_10.index t 0 ≤ 3 ∧ win0_10.index t 1 ≤ 3 :=
  (by decide +kernel : ∀ t : Fin grid0.N, _)

theorem idx_onto10 : ∀ (q0 : Fin 4) (q1 : Fin 4), ∃ t : Fin cfg0.N, win0_10.index t = ![q0.val, q1.val, 0] :=
  (by decide +kernel : ∀ (q0 : Fin 4) (q1 : Fin 4), ∃ t : Fin grid0.N, win0_10.index t = ![q0.val, q1.val, 0])

/-- A block of the second activations read at a block index is the array read at the index the block's rectangle names. -/
theorem xblk1_apply (c : Dev nD) (t : Fin cfg0.N) (x : S1x1024x1024.Idx) (k : S4x4096x1024.Idx)
    (hk0 : (k 0).val = win0_1.index t 0 * 1 + 1 * (x 0).val) (hk1 : (k 1).val = win0_1.index t 1 * 1024 + 1 * (x 1).val)
    (hk2 : (k 2).val = win0_1.index t 2 * 1024 + 1 * (x 2).val) :
    (iblk0 V c 1 t : Vec Ideal S1x1024x1024 .f32) x = (V c main_arg1 : S4x4096x1024.Idx → EReal) k := by
  unfold iblk0
  rw [View.read_apply]
  show (V c main_arg1 : S4x4096x1024.Idx → EReal) _ = _
  refine congrArg _ (funext fun a => Fin.ext ?_)
  match a with
  | ⟨0, _⟩ => exact hk0.symm
  | ⟨1, _⟩ => exact hk1.symm
  | ⟨2, _⟩ => exact hk2.symm

/-- The second weight matrix's window is the whole matrix. -/
theorem wblk5_apply (c : Dev nD) (t : Fin cfg0.N) (x : S1024x64.Idx) (k : S1024x64.Idx)
    (hk0 : (k 0).val = win0_5.index t 0 * 1024 + 1 * (x 0).val) (hk1 : (k 1).val = win0_5.index t 1 * 64 + 1 * (x 1).val) :
    (iblk0 V c 5 t : Vec Ideal S1024x64 .f32) x = (V c main_arg5 : S1024x64.Idx → EReal) k := by
  unfold iblk0
  rw [View.read_apply]
  show (V c main_arg5 : S1024x64.Idx → EReal) _ = _
  refine congrArg _ (funext fun a => Fin.ext ?_)
  match a with
  | ⟨0, _⟩ => exact hk0.symm
  | ⟨1, _⟩ => exact hk1.symm

/-- The second bias vector's window is the whole vector. -/
theorem bblk6_apply (c : Dev nD) (t : Fin cfg0.N) (x : S64.Idx) (k : S64.Idx)
    (hk0 : (k 0).val = win0_6.index t 0 * 64 + 1 * (x 0).val) :
    (iblk0 V c 6 t : Vec Ideal S64 .f32) x = (V c main_arg6 : S64.Idx → EReal) k := by
  unfold iblk0
  rw [View.read_apply]
  show (V c main_arg6 : S64.Idx → EReal) _ = _
  refine congrArg _ (funext fun a => Fin.ext ?_)
  match a with
  | ⟨0, _⟩ => exact hk0.symm

/-- What a grid point writes back to the second projection's array is that point's block of `proj` of the
    arguments: the block's row r is row (block index · 1024 + r) of the array, the weights and bias are whole. -/
theorem flushed10_eq (c : Dev nD) (t : Fin cfg0.N) :
    (dat0 V c).flushed 10 t = ((cfg0.win 10).blk t).view.read (Elt Ideal)
      (Cert.Attn.proj (V c main_arg1) (V c main_arg5) (V c main_arg6)) := by
  show (cfg0.win 10).cut (grid0.coords t) ((dat0 V c).after 10 t) = _
  rw [after0_10]
  unfold out0_10
  rw [View.canon_unit_zero hz3]
  simp only [View.ld_unit_zero (S := S1x1024x1024) hz3, View.ld_unit_zero (S := S1024x64) hz2, View.ld_unit_zero (S := S64) hz1]
  obtain ⟨e0, e1, e2, e3, e4, e5, e6, e7, e8⟩ := idx_facts10 t
  funext y
  obtain ⟨u, r, d, rfl⟩ : ∃ u r d, y = ix3 u r d := ⟨y 0, y 1, y 2, eq_ix3 y⟩
  refine (payK_apply _ _ _ u r d).trans ?_
  unfold blkProj
  rw [View.read_apply]
  show _ = Cert.Attn.proj (V c main_arg1) (V c main_arg5) (V c main_arg6) _
  unfold Cert.Attn.proj
  have hu : u.val = 0 := by have h : u.val < 1 := u.isLt; omega
  refine congrArg₂ (· + ·) (Finset.sum_congr rfl fun h _ => congrArg₂ (· * ·) ?_ ?_) ?_
  · refine xblk1_apply V c t _ _ ?_ ?_ ?_
    · show win0_10.index t 0 * 1 + 1 * u.val = win0_1.index t 0 * 1 + 1 * 0
      omega
    · show win0_10.index t 1 * 1024 + 1 * r.val = win0_1.index t 1 * 1024 + 1 * r.val
      omega
    · show h.val = win0_1.index t 2 * 1024 + 1 * h.val
      omega
  · refine wblk5_apply V c t _ _ ?_ ?_
    · show h.val = win0_5.index t 0 * 1024 + 1 * h.val
      omega
    · show win0_10.index t 2 * 64 + 1 * d.val = win0_5.index t 1 * 64 + 1 * d.val
      omega
  · refine bblk6_apply V c t _ _ ?_
    show win0_10.index t 2 * 64 + 1 * d.val = win0_6.index t 0 * 64 + 1 * d.val
    omega

/-- An index of the second projection's array is in a point's block iff each coordinate is in the block's range. -/
theorem mem_blk10 (t : Fin cfg0.N) (i : S4x4096x64.Idx) :
    i ∈ ((cfg0.win 10).blk t).view.set ↔ ∀ a : Fin 3, win0_10.index t a * S1x1024x64.size a ≤ (i a).val
      ∧ (i a).val < win0_10.index t a * S1x1024x64.size a + S1x1024x64.size a := by
  show i ∈ ((View.whole main_v0_1).slice (win0_10.rect t)).set ↔ _
  rw [View.set_slice_whole, Rect.mem_set_unit]
  exact Iff.rfl

/-- Every index (b, s, d) of the array is in the block of the point with block index (b, s / 1024, 0). -/
theorem cover10 (i : S4x4096x64.Idx) :
    ∃ t : Fin cfg0.N, (cfg0.win 10).flush t = true ∧ i ∈ ((cfg0.win 10).blk t).view.set := by
  have hi0 : (i 0).val < 4 := (i 0).isLt
  have hi1 : (i 1).val < 4096 := (i 1).isLt
  have hi2 : (i 2).val < 64 := (i 2).isLt
  obtain ⟨t, ht⟩ := idx_onto10 ⟨(i 0).val, hi0⟩ ⟨(i 1).val / 1024, by omega⟩
  have q0 : win0_10.index t 0 = (i 0).val := congrFun ht 0
  have q1 : win0_10.index t 1 = (i 1).val / 1024 := congrFun ht 1
  have q2 : win0_10.index t 2 = 0 := congrFun ht 2
  refine ⟨t, flush0_10 t, ?_⟩
  rw [mem_blk10]
  intro a
  match a with
  | ⟨0, _⟩ => show win0_10.index t 0 * 1 ≤ (i 0).val ∧ (i 0).val < win0_10.index t 0 * 1 + 1; omega
  | ⟨1, _⟩ => show win0_10.index t 1 * 1024 ≤ (i 1).val ∧ (i 1).val < win0_10.index t 1 * 1024 + 1024; omega
  | ⟨2, _⟩ => show win0_10.index t 2 * 64 ≤ (i 2).val ∧ (i 2).val < win0_10.index t 2 * 64 + 64; omega

/-- The second projection's array after the region is `proj` of the second activations, weights and bias. -/
theorem k_array (c : Dev nD) :
    (dat0 V c).arrAt 10 cfg0.N = Cert.Attn.proj (V c main_arg1) (V c main_arg5) (V c main_arg6) :=
  (dat0 V c).arrAt_eq_of_cover 10 _ (fun t _ => flushed10_eq V c t) cover10

end Cert.KernelIdeal.Proj

end
-- ==== Proof.ProjArrayV.lean ====
/-
  The third projection's output array after the projection region, as one function of the region's input arrays.

  The region runs over a 4 × 4 grid. At grid point (b, j) the body holds the block of rows 1024·j … 1024·j + 1023 of
  batch b of the activations x_v : [4, 4096, 1024], the whole weight matrix W_v : [1024, 64] and the whole bias
  b_v : [64], and writes the block of the same rows of batch b of the output [4, 4096, 64]. The block it writes is
  (Σ_h x[0,r,h] · W[h,d]) + bias[d] of its loads, which is the block of `Cert.Attn.proj` of the arrays at those rows;
  the sixteen blocks tile the output, so the array ends as `Cert.Attn.proj` of the three arrays.
-/
import proofs.«112885_j28432683499824_2_alg».proof.Proof.ProjArrayQ

noncomputable section

namespace Cert.KernelIdeal.Proj

open Cert.KernelIdeal Cert.KernelIdeal.Gen Idealize.ShloMosaic Idealize.ShloMosaic.TcCoe Idealize.SL.Sem
open Idealize.ShloMosaic.ValueIdx
open Idealize.ShloMosaic.Pipeline (Dat)

-- the buffer contents when the projection region is entered
variable (V : (c : Dev nD) → (b : Ref sig .tc) → Buf (Elt Ideal) ((c : Thread nD τ).loc b))

theorem idx_facts11 : ∀ t : Fin cfg0.N,
    win0_2.index t 0 = win0_11.index t 0 ∧ win0_2.index t 1 = win0_11.index t 1 ∧ win0_2.index t 2 = 0
    ∧ win0_11.index t 2 = 0 ∧ win0_7.index t 0 = 0 ∧ win0_7.index t 1 = 0 ∧ win0_8.index t 0 = 0
    ∧ win0_11.index t 0 ≤ 3 ∧ win0_11.index t 1 ≤ 3 :=
  (by decide +kernel : ∀ t : Fin grid0.N, _)

theorem idx_onto11 : ∀ (q0 : Fin 4) (q1 : Fin 4), ∃ t : Fin cfg0.N, win0_11.index t = ![q0.val, q1.val, 0] :=
  (by decide +kernel : ∀ (q0 : Fin 4) (q1 : Fin 4), ∃ t : Fin grid0.N, win0_11.index t = ![q0.val, q1.val, 0])

/-- A block of the third activations read at a block index is the array read at the index the block's rectangle names. -/
theorem xblk2_apply (c : Dev nD) (t : Fin cfg0.N) (x : S1x1024x1024.Idx) (k : S4x4096x1024.Idx)
    (hk0 : (k 0).val = win0_2.index t 0 * 1 + 1 * (x 0).val) (hk1 : (k 1).val = win0_2.index t 1 * 1024 + 1 * (x 1).val)
    (hk2 : (k 2).val = win0_2.index t 2 * 1024 + 1 * (x 2).val) :
    (iblk0 V c 2 t : Vec Ideal S1x1024x1024 .f32) x = (V c main_arg2 : S4x4096x1024.Idx → EReal) k := by
  unfold iblk0
  rw [View.read_apply]
  show (V c main_arg2 : S4x4096x1024.Idx → EReal) _ = _
  refine congrArg _ (funext fun a => Fin.ext ?_)
  match a with
  | ⟨0, _⟩ => exact hk0.symm
  | ⟨1, _⟩ => exact hk1.symm
  | ⟨2, _⟩ => exact hk2.symm

/-- The third weight matrix's window is the whole matrix. -/
theorem wblk7_apply (c : Dev nD) (t : Fin cfg0.N) (x : S1024x64.Idx) (k : S1024x64.Idx)
    (hk0 : (k 0).val = win0_7.index t 0 * 1024 + 1 * (x 0).val) (hk1 : (k 1).val = win0_7.index t 1 * 64 + 1 * (x 1).val) :
    (iblk0 V c 7 t : Vec Ideal S1024x64 .f32) x = (V c main_arg7 : S1024x64.Idx → EReal) k := by
  unfold iblk0
  rw [View.read_apply]
  show (V c main_arg7 : S1024x64.Idx → EReal) _ = _
  refine congrArg _ (funext fun a => Fin.ext ?_)
  match a with
  | ⟨0, _⟩ => exact hk0.symm
  | ⟨1, _⟩ => exact hk1.symm

/-- The third bias vector's window is the whole vector. -/
theorem bblk8_apply (c : Dev nD) (t : Fin cfg0.N) (x : S64.Idx) (k : S64.Idx)
    (hk0 : (k 0).val = win0_8.index t 0 * 64 + 1 * (x 0).val) :
    (iblk0 V c 8 t : Vec Ideal S64 .f32) x = (V c main_arg8 : S64.Idx → EReal) k := by
  unfold iblk0
  rw [View.read_apply]
  show (V c main_arg8 : S64.Idx → EReal) _ = _
  refine congrArg _ (funext fun a => Fin.ext ?_)
  match a with
  | ⟨0, _⟩ => exact hk0.symm

/-- What a grid point writes back to the third projection's array is that point's block of `proj` of the
    arguments: the block's row r is row (block index · 1024 + r) of the array, the weights and bias are whole. -/
theorem flushed11_eq (c : Dev nD) (t : Fin cfg0.N) :
    (dat0 V c).flushed 11 t = ((cfg0.win 11).blk t).view.read (Elt Ideal)
      (Cert.Attn.proj (V c main_arg2) (V c main_arg7) (V c main_arg8)) := by
  show (cfg0.win 11).cut (grid0.coords t) ((dat0 V c).after 11 t) = _
  rw [after0_11]
  unfold out0_11
  rw [View.canon_unit_zero hz3]
  simp only [View.ld_unit_zero (S := S1x1024x1024) hz3, View.ld_unit_zero (S := S1024x64) hz2, View.ld_unit_zero (S := S64) hz1]
  obtain ⟨e0, e1, e2, e3, e4, e5, e6, e7, e8⟩ := idx_facts11 t
  funext y
  obtain ⟨u, r, d, rfl⟩ : ∃ u r d, y = ix3 u r d := ⟨y 0, y 1, y 2, eq_ix3 y⟩
  refine (payV_apply _ _ _ u r d).trans ?_
  unfold blkProj
  rw [View.read_apply]
  show _ = Cert.Attn.proj (V c main_arg2) (V c main_arg7) (V c main_arg8) _
  unfold Cert.Attn.proj
  have hu : u.val = 0 := by have h : u.val < 1 := u.isLt; omega
  refine congrArg₂ (· + ·) (Finset.sum_congr rfl fun h _ => congrArg₂ (· * ·) ?_ ?_) ?_
  · refine xblk2_apply V c t _ _ ?_ ?_ ?_
    · show win0_11.index t 0 * 1 + 1 * u.val = win0_2.index t 0 * 1 + 1 * 0
      omega
    · show win0_11.index t 1 * 1024 + 1 * r.val = win0_2.index t 1 * 1024 + 1 * r.val
      omega
    · show h.val = win0_2.index t 2 * 1024 + 1 * h.val
      omega
  · refine wblk7_apply V c t _ _ ?_ ?_
    · show h.val = win0_7.index t 0 * 1024 + 1 * h.val
      omega
    · show win0_11.index t 2 * 64 + 1 * d.val = win0_7.index t 1 * 64 + 1 * d.val
      omega
  · refine bblk8_apply V c t _ _ ?_
    show win0_11.index t 2 * 64 + 1 * d.val = win0_8.index t 0 * 64 + 1 * d.val
    omega

/-- An index of the third projection's array is in a point's block iff each coordinate is in the block's range. -/
theorem mem_blk11 (t : Fin cfg0.N) (i : S4x4096x64.Idx) :
    i ∈ ((cfg0.win 11).blk t).view.set ↔ ∀ a : Fin 3, win0_11.index t a * S1x1024x64.size a ≤ (i a).val
      ∧ (i a).val < win0_11.index t a * S1x1024x64.size a + S1x1024x64.size a := by
  show i ∈ ((View.whole main_v0_2).slice (win0_11.rect t)).set ↔ _
  rw [View.set_slice_whole, Rect.mem_set_unit]
  exact Iff.rfl

/-- Every index (b, s, d) of the array is in the block of the point with block index (b, s / 1024, 0). -/
theorem cover11 (i : S4x4096x64.Idx) :
    ∃ t : Fin cfg0.N, (cfg0.win 11).flush t = true ∧ i ∈ ((cfg0.win 11).blk t).view.set := by
  have hi0 : (i 0).val < 4 := (i 0).isLt
  have hi1 : (i 1).val < 4096 := (i 1).isLt
  have hi2 : (i 2).val < 64 := (i 2).isLt
  obtain ⟨t, ht⟩ := idx_onto11 ⟨(i 0).val, hi0⟩ ⟨(i 1).val / 1024, by omega⟩
  have q0 : win0_11.index t 0 = (i 0).val := congrFun ht 0
  have q1 : win0_11.index t 1 = (i 1).val / 1024 := congrFun ht 1
  have q2 : win0_11.index t 2 = 0 := congrFun ht 2
  refine ⟨t, flush0_11 t, ?_⟩
  rw [mem_blk11]
  intro a
  match a with
  | ⟨0, _⟩ => show win0_11.index t 0 * 1 ≤ (i 0).val ∧ (i 0).val < win0_11.index t 0 * 1 + 1; omega
  | ⟨1, _⟩ => show win0_11.index t 1 * 1024 ≤ (i 1).val ∧ (i 1).val < win0_11.index t 1 * 1024 + 1024; omega
  | ⟨2, _⟩ => show win0_11.index t 2 * 64 ≤ (i 2).val ∧ (i 2).val < win0_11.index t 2 * 64 + 64; omega

/-- The third projection's array after the region is `proj` of the third activations, weights and bias. -/
theorem v_array (c : Dev nD) :
    (dat0 V c).arrAt 11 cfg0.N = Cert.Attn.proj (V c main_arg2) (V c main_arg7) (V c main_arg8) :=
  (dat0 V c).arrAt_eq_of_cover 11 _ (fun t _ => flushed11_eq V c t) cover11

end Cert.KernelIdeal.Proj

end
-- ==== Proof.ProjArray.lean ====
/-
  The projection region's three output arrays, each as `Cert.Attn.proj` of the region's input arrays
  (activations, weight matrix, bias): `Cert.KernelIdeal.Proj.q_array`, `k_array`, `v_array`.
-/
import proofs.«112885_j28432683499824_2_alg».proof.Proof.ProjArrayQ
import proofs.«112885_j28432683499824_2_alg».proof.Proof.ProjArrayK
import proofs.«112885_j28432683499824_2_alg».proof.Proof.ProjArrayV
-- ==== Proof.KernelValue.lean ====
/-
  The idealized kernel's run, read: the output array ends at `attnK (scores q k) v` and the scores array at
  `scores q k`, where q, k, v are the projections `proj` of the launch arrays.

  The attention region's arrays are `scores` / `attnK` of the q, k, v arrays it finds; it finds them where the
  projection region's write-backs left them; and those are `proj` of the arrays that region found, which are the
  launch arrays.
-/
import proofs.«112885_j28432683499824_2_alg».proof.Proof.KernelRun
import proofs.«112885_j28432683499824_2_alg».proof.Proof.AttnArray
import proofs.«112885_j28432683499824_2_alg».proof.Proof.ProjArray

set_option maxRecDepth 16384

noncomputable section

open Idealize.ShloMosaic Idealize.ShloMosaic.TcCoe Idealize.SL.Sem

namespace Cert.KernelIdeal.Attn

open Cert.KernelIdeal Cert.KernelIdeal.Gen

variable (m : (ℓ : Loc nD τ sig) → Buf (Elt Ideal) ℓ) (ρ : Dev nD → PrngReg)

/-- The projected queries, keys and values, as functions of the launch arrays. -/
abbrev qOf (c : Dev nD) : Cert.Attn.SP.Idx → EReal :=
  Cert.Attn.proj (m ((c.tc : Thread nD τ).loc main_arg0)) (m ((c.tc : Thread nD τ).loc main_arg3)) (m ((c.tc : Thread nD τ).loc main_arg4))
abbrev kOf (c : Dev nD) : Cert.Attn.SP.Idx → EReal :=
  Cert.Attn.proj (m ((c.tc : Thread nD τ).loc main_arg1)) (m ((c.tc : Thread nD τ).loc main_arg5)) (m ((c.tc : Thread nD τ).loc main_arg6))
abbrev vOf (c : Dev nD) : Cert.Attn.SP.Idx → EReal :=
  Cert.Attn.proj (m ((c.tc : Thread nD τ).loc main_arg2)) (m ((c.tc : Thread nD τ).loc main_arg7)) (m ((c.tc : Thread nD τ).loc main_arg8))

/-- What the attention region finds in the q, k, v arrays. -/
theorem q_entry (c : Dev nD) : V1 m ρ c main_v0_0 = qOf m c :=
  (q_at_entry m ρ c).trans (Cert.KernelIdeal.Proj.q_array (V0 m ρ) c)
theorem k_entry (c : Dev nD) : V1 m ρ c main_v0_1 = kOf m c :=
  (k_at_entry m ρ c).trans (Cert.KernelIdeal.Proj.k_array (V0 m ρ) c)
theorem v_entry (c : Dev nD) : V1 m ρ c main_v0_2 = vOf m c :=
  (v_at_entry m ρ c).trans (Cert.KernelIdeal.Proj.v_array (V0 m ρ) c)

/-- The scores array at the last boundary. -/
theorem scores_value (c : Dev nD) :
    W2 m ρ c (Proc.devRef .tc main_v1_0) = Cert.Attn.scores (qOf m c) (kOf m c) :=
  (scores_at_exit m ρ c).trans ((scores_array (V1 m ρ) c).trans
    (congrArg₂ Cert.Attn.scores (q_entry m ρ c) (k_entry m ρ c)))

/-- The output array at the last boundary. -/
theorem out_value (c : Dev nD) :
    W2 m ρ c (Proc.devRef .tc main_v1_1) = Cert.Attn.attnK (Cert.Attn.scores (qOf m c) (kOf m c)) (vOf m c) :=
  (out_at_exit m ρ c).trans ((out_array (V1 m ρ) c).trans
    (congrArg₂ Cert.Attn.attnK (congrArg₂ Cert.Attn.scores (q_entry m ρ c) (k_entry m ρ c)) (v_entry m ρ c)))

/-- The run, read: both results as functions of the launch arrays, the arguments unchanged. -/
theorem run_value : θ_run defs (onTc (τ := τ) (main (F := Ideal))) ⟨m, fun _ => 0, ρ⟩ (fun r => ∀ c : Dev nD,
      r.2.mem ((c.tc : Thread nD τ).loc main_v1_1) = Cert.Attn.attnK (Cert.Attn.scores (qOf m c) (kOf m c)) (vOf m c)
      ∧ r.2.mem ((c.tc : Thread nD τ).loc main_v1_0) = Cert.Attn.scores (qOf m c) (kOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (out_value m ρ c), (h c).2.1.trans (scores_value m ρ c), (h c).2.2⟩)
    (run_results (F := Ideal) m ρ)

end Cert.KernelIdeal.Attn

end
-- ==== Proof.Consts.lean ====
/-
  The float words the two programs spell, as the extended reals they denote, and the one law about the scale:
  dividing by √64 is multiplying by 1/8, on every extended real.
    0x42800000 is 64, so its square root is 8;  0x3E000000 is 1/8;  0xFF800000 is -∞ (the lattice's bottom);
    0x00000000 is 0.
-/
import Idealize.ShloMosaic.PureOps.Ideal
import proofs.«112885_j28432683499824_2_alg».proof.Proof.Spec

noncomputable section

namespace Cert.Attn

open Idealize.ShloMosaic

/-- The word 0x42800000 denotes the real 64. -/
theorem ofBits_64 : Ideal.ofBits .f32 0x42800000#32 = ((64 : ℝ) : EReal) := by
  simp [Ideal.ofBits, Ideal.ieee, -EReal.coe_mul]; norm_num

/-- The scale word 0x3E000000 denotes the real 1/8. -/
theorem eighth_eq : eighth = (((1 : ℝ) / 8 : ℝ) : EReal) := by
  unfold eighth
  simp [Ideal.ofBits, Ideal.ieee, -EReal.coe_mul]; norm_num

/-- The word 0xFF800000 denotes -∞, the bottom of the extended reals. -/
theorem negInf_eq : negInf = ⊥ := by
  unfold negInf
  simp [Ideal.ofBits, Ideal.ieee]

/-- The zero word denotes 0. -/
theorem ofBits_zero : Ideal.ofBits .f32 0x00000000#32 = 0 := by
  simp [Ideal.ofBits, Ideal.ieee]

/-- √64 = 8. -/
theorem sqrt_64 : Ideal.sqrt (Ideal.ofBits .f32 0x42800000#32) = ((8 : ℝ) : EReal) := by
  rw [ofBits_64, Ideal.sqrt_coe, if_neg (by norm_num)]
  have h : Real.sqrt 64 = 8 := by
    rw [show (64 : ℝ) = 8 ^ 2 by norm_num]
    exact Real.sqrt_sq (by norm_num)
  rw [h]

/-- Dividing by √64 is multiplying by the scale word, whatever the dividend. -/
theorem scale_eq (x : EReal) : Ideal.div x (Ideal.sqrt (Ideal.ofBits .f32 0x42800000#32)) = x * eighth := by
  rw [sqrt_64, Ideal.div_coe (by norm_num : (8 : ℝ) ≠ 0), eighth_eq]

end Cert.Attn

end
-- ==== Proof.LibRowMax3.lean ====
/-
  A maximum from `-∞` along the LAST axis of a rank-3 array, read at an index, on the extended reals.

  The host's `stablehlo.reduce` with a maximum body from the value of the pattern `0xFF800000` (`-∞`) along the third
  axis of an `[a, n, b]` array, at `(p, r)`, is the fold of `max` from `-∞` over the `b` entries `(p, r, ·)`. The reduced index
  `(p, r)` with the third coordinate `k` put back is `(p, r, k)`. (The rank-2 companion reads a row maximum of a matrix.)
-/
import Idealize.ShloMosaic.Lib.ValueIdx
import Idealize.ShloMosaic.PureOps.Ideal.Laws

noncomputable section

namespace Cert.Lib.RowMax3

open Idealize.ShloMosaic Idealize.ShloMosaic.ValueIdx

/-- The reduced index `(p, r)` with the last coordinate `k` put back is `(p, r, k)`. -/
theorem lift_last {a n b : ℕ} (hr : (⟨3, ![a, n, b]⟩ : Shape).Reduces [2] ⟨2, ![a, n]⟩) (p : Fin a) (r : Fin n)
    (k : Fin ((⟨3, ![a, n, b]⟩ : Shape).size 2)) : hr.lift (ix2 p r) k = ix3 p r (⟨k.val, k.isLt⟩ : Fin b) := by
  funext d; apply Fin.ext
  match d with
  | ⟨0, _⟩ => rfl
  | ⟨1, _⟩ => rfl
  | ⟨2, _⟩ => rfl

/-- The host's reduce with a maximum body from `-∞` along the last axis, at `(p, r)`, is the fold of `max` from `-∞`
    over the entries `(p, r, ·)`. -/
theorem hostLastMax_apply {a n b : ℕ} (z : FVec Ideal ⟨3, ![a, n, b]⟩ .f32)
    (hrt : (⟨3, ![a, n, b]⟩ : Shape).ReducesTo [2] ⟨2, ![a, n]⟩) (hr : (⟨3, ![a, n, b]⟩ : Shape).Reduces [2] ⟨2, ![a, n]⟩)
    (hu : 0 < (⟨0, ![]⟩ : Shape).numel) (p : Fin a) (r : Fin n) :
    Host.reduce FloatOps.maximumf z (constant (F := Ideal) ⟨0, ![]⟩ .f32 0xFF800000#32) hrt hu (ix2 p r)
      = (Finset.univ : Finset (Fin b)).fold max (Ideal.ofBits .f32 0xFF800000#32) (fun k => z (ix3 p r k)) := by
  rw [Host.reduce_eq_fold_single FloatOps.maximumf z _ hrt hr hu]
  have hf : (z ∘ hr.lift (ix2 p r)) = fun k : Fin b => z (ix3 p r k) := funext fun k => congrArg z (lift_last hr p r k)
  exact congrArg (fun f => Finset.fold max (Ideal.ofBits .f32 0xFF800000#32) f (Finset.univ : Finset (Fin b))) hf

end Cert.Lib.RowMax3

end
-- ==== Proof.RefRead.lean ====
/-
  The reference program's two results, read back index by index, are the specification.

  Stage by stage: the three projections are `proj` (a contraction over the hidden axis plus the bias spread over batch
  and sequence); the scaled scores are `scores` (a contraction over the head axis, divided by √64, which is a product
  with 1/8); the row maximum folded from -∞, joined once more with -∞, is `rowMax`; the exponential of the score minus
  its row's maximum is `expw`; zero plus the row's sum of those is `denom`; and the contraction over the key axis of the
  normalised weights against the values is `attnR`.
-/
import proofs.«112885_j28432683499824_2_alg».proof.Proof.Spec
import proofs.«112885_j28432683499824_2_alg».proof.Proof.Consts
import proofs.«112885_j28432683499824_2_alg».proof.Proof.LibRowMax3
import proofs.«112885_j28432683499824_2_alg».proof.Proof.Gen.ReferenceIdeal.Read

noncomputable section

namespace Cert.Attn.Ref

open Idealize.ShloMosaic Idealize.ShloMosaic.ValueIdx Cert.ReferenceIdeal Cert.ReferenceIdeal.Read

variable (x0 x1 x2 : SX.Idx → EReal) (x3 : SW.Idx → EReal) (x4 : SB.Idx → EReal) (x5 : SW.Idx → EReal) (x6 : SB.Idx → EReal)
  (x7 : SW.Idx → EReal) (x8 : SB.Idx → EReal)

/-- The query stage is the projection of the first activation array. -/
theorem q_stage : val_main_v3 (F := Ideal) x0 x3 x4 = proj x0 x3 x4 := by
  funext i
  rw [val_main_v3_apply, val_main_v0_apply, val_main_v2_apply, val_main_v1_apply]
  simp only [Ideal.addf_def]
  unfold proj
  have eb : idx_main_v1 (idx_main_v2 i) = ix1 (i 2) := funext fun a => Fin.ext (by match a with | ⟨0, _⟩ => rfl)
  rw [eb]
  refine congrArg (· + x4 (ix1 (i 2))) (Finset.sum_congr rfl fun k _ => ?_)
  have el : lidx_main_v0 i k = ix3 (i 0) (i 1) k :=
    funext fun a => Fin.ext (by match a with | ⟨0, _⟩ => rfl | ⟨1, _⟩ => rfl | ⟨2, _⟩ => rfl)
  have er : ridx_main_v0 i k = ix2 k (i 2) := funext fun a => Fin.ext (by match a with | ⟨0, _⟩ => rfl | ⟨1, _⟩ => rfl)
  rw [el, er]
  rfl

/-- The key stage is the projection of the second activation array. -/
theorem k_stage : val_main_v7 (F := Ideal) x1 x5 x6 = proj x1 x5 x6 := q_stage x1 x5 x6

/-- The value stage is the projection of the third activation array. -/
theorem v_stage : val_main_v11 (F := Ideal) x2 x7 x8 = proj x2 x7 x8 := q_stage x2 x7 x8

/-- The first result: the scaled scores of the projected queries and keys. -/
theorem ref_scores : Cert.ReferenceIdeal.Read.val_main_v15 (F := Ideal) x0 x1 x3 x4 x5 x6
    = Cert.Attn.scores (Cert.Attn.proj x0 x3 x4) (Cert.Attn.proj x1 x5 x6) := by
  funext i
  rw [val_main_v15_apply, val_main_v12_apply, val_main_v14_apply, val_main_v13_apply, val_main_cst_apply]
  simp only [Ideal.hostDivf_def, Ideal.hostUnary_sqrt_def, Ideal.ofBits_def]
  rw [scale_eq, q_stage, k_stage]
  unfold scores
  refine congrArg (· * eighth) (Finset.sum_congr rfl fun k _ => ?_)
  have el : lidx_main_v12 i k = ix3 (i 0) (i 1) k :=
    funext fun a => Fin.ext (by match a with | ⟨0, _⟩ => rfl | ⟨1, _⟩ => rfl | ⟨2, _⟩ => rfl)
  have er : ridx_main_v12 i k = ix3 (i 0) (i 2) k :=
    funext fun a => Fin.ext (by match a with | ⟨0, _⟩ => rfl | ⟨1, _⟩ => rfl | ⟨2, _⟩ => rfl)
  rw [el, er]
  rfl

/-- Joining -∞ with a fold of `max` from -∞ changes nothing: -∞ is the bottom element. -/
theorem max_negInf_fold {ι : Type} (t : Finset ι) (f : ι → EReal) :
    max negInf (t.fold max negInf f) = t.fold max negInf f := by
  rw [negInf_eq]; exact max_bot_left _

/-- The row-maximum stage at `(b, i)` is the row maximum of the scores. -/
theorem max_stage (b : Fin 4) (i : Fin 4096) :
    val_main_v18 (F := Ideal) x0 x1 x3 x4 x5 x6 (ix2 b i) = rowMax (val_main_v15 (F := Ideal) x0 x1 x3 x4 x5 x6) b i := by
  rw [val_main_v18_apply, val_main_v17_apply, val_main_cst_1_apply]
  simp only [Ideal.maximumf_def, Ideal.ofBits_def]
  unfold val_main_v16 val_main_cst_0
  rw [Cert.Lib.RowMax3.hostLastMax_apply _ _ (by decide) _ b i]
  exact max_negInf_fold _ _

/-- The exponential stage at `(b, i, j)` is the unnormalised softmax weight. -/
theorem exp_stage (b : Fin 4) (i j : Fin 4096) :
    val_main_v22 (F := Ideal) x0 x1 x3 x4 x5 x6 (ix3 b i j) = expw (val_main_v15 (F := Ideal) x0 x1 x3 x4 x5 x6) b i j := by
  rw [val_main_v22_apply, val_main_v21_apply, val_main_v20_apply, val_main_v19_apply]
  simp only [Ideal.hostUnary_exp_def, Ideal.subf_def]
  have e : idx_main_v19 (idx_main_v20 (ix3 b i j)) = ix2 b i :=
    funext fun a => Fin.ext (by match a with | ⟨0, _⟩ => rfl | ⟨1, _⟩ => rfl)
  rw [e, max_stage]
  rfl

/-- The sum stage at `(b, i)` is the softmax denominator: the zero it starts from adds nothing. -/
theorem denom_stage (b : Fin 4) (i : Fin 4096) :
    val_main_v23 (F := Ideal) x0 x1 x3 x4 x5 x6 (ix2 b i) = denom (val_main_v15 (F := Ideal) x0 x1 x3 x4 x5 x6) b i := by
  rw [val_main_v23_apply, val_main_cst_2_apply]
  simp only [Ideal.ofBits_def]
  rw [ofBits_zero, zero_add]
  unfold denom
  refine Finset.sum_congr rfl fun k _ => ?_
  have e : idx_main_v23 (ix2 b i) k = ix3 b i k :=
    funext fun a => Fin.ext (by match a with | ⟨0, _⟩ => rfl | ⟨1, _⟩ => rfl | ⟨2, _⟩ => rfl)
  rw [e, exp_stage]

/-- The second result: the attention output with the weights normalised first. -/
theorem ref_out : Cert.ReferenceIdeal.Read.val_main_v27 (F := Ideal) x0 x1 x2 x3 x4 x5 x6 x7 x8
    = Cert.Attn.attnR (Cert.Attn.scores (Cert.Attn.proj x0 x3 x4) (Cert.Attn.proj x1 x5 x6)) (Cert.Attn.proj x2 x7 x8) := by
  funext i
  obtain ⟨b, r, d, rfl⟩ : ∃ (b : Fin 4) (r : Fin 4096) (d : Fin 64), i = ix3 b r d := ⟨i 0, i 1, i 2, eq_ix3 i⟩
  rw [val_main_v27_apply]
  show _ = ∑ j : Fin 4096, Ideal.div (expw _ b r j) (denom _ b r) * proj x2 x7 x8 (ix3 b j d)
  refine Finset.sum_congr rfl fun k _ => ?_
  rw [val_main_v26_apply, val_main_v25_apply, val_main_v24_apply]
  simp only [Ideal.hostDivf_def]
  have el : lidx_main_v27 (ix3 b r d) k = ix3 b r k :=
    funext fun a => Fin.ext (by match a with | ⟨0, _⟩ => rfl | ⟨1, _⟩ => rfl | ⟨2, _⟩ => rfl)
  have ed : idx_main_v24 (idx_main_v25 (ix3 b r k)) = ix2 b r :=
    funext fun a => Fin.ext (by match a with | ⟨0, _⟩ => rfl | ⟨1, _⟩ => rfl)
  have er : ridx_main_v27 (ix3 b r d) k = ix3 b k d :=
    funext fun a => Fin.ext (by match a with | ⟨0, _⟩ => rfl | ⟨1, _⟩ => rfl | ⟨2, _⟩ => rfl)
  rw [el, ed, er, exp_stage, denom_stage, v_stage, ref_scores]

end Cert.Attn.Ref

end
-- ==== Proof.LibAggLinear.lean ====
/-
  Real-valued extended reals, and the law that lets a weighted row aggregation pass through a right matrix product.

  An extended real is REAL when it is the image of a real number. Reals are closed under `+`, `·`, `max` and finite
  sums, and on them the extended reals' arithmetic is the reals' (where distributivity holds, which it does not
  at the infinities).

  The law (`agg_dot`): for real coefficients, aggregating rows and then multiplying on the right by a matrix column
  is multiplying each row first and then aggregating:
    ∑ₖ ((z + ∑_{r ∈ E} a r k · n r) + c k · t) · W k  =  (z + ∑_{r ∈ E} (∑ₖ a r k · W k) · n r) + (∑ₖ c k · W k) · t,
  with `z = 0`. It is distributivity and an exchange of two finite sums.
-/
import Idealize.ShloMosaic.PureOps.Ideal

noncomputable section

namespace Cert.Lib.AggLinear

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption

/-- The embedding of the reals commutes with finite sums. -/
theorem coe_sum {ι : Type*} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

theorem IsReal.sum {ι : Type*} (s : Finset ι) (f : ι → EReal) (h : ∀ i ∈ s, IsReal (f i)) : IsReal (∑ i ∈ s, f i) := by
  induction s using Finset.cons_induction with
  | empty => simpa using isReal_zero
  | cons a s ha ih =>
    rw [Finset.sum_cons]
    exact (h a (Finset.mem_cons_self a s)).add (ih fun i hi => h i (Finset.mem_cons.mpr (Or.inr hi)))

/-- A sum of ones is a natural number: real and nonnegative. -/
theorem sum_one_eq {ι : Type*} (s : Finset ι) : (∑ _i ∈ s, (1 : EReal)) = ((s.card : ℝ) : EReal) := by
  have : (∑ _i ∈ s, ((1 : ℝ) : EReal)) = (((∑ _i ∈ s, (1 : ℝ)) : ℝ) : EReal) := (coe_sum s fun _ => (1 : ℝ)).symm
  rw [show (1 : EReal) = ((1 : ℝ) : EReal) from rfl, this]
  simp

/-- Aggregating rows with real weights and then taking a real column combination is combining first and aggregating after. -/
theorem agg_dot {ε κ : Type*} [Fintype κ] (E : Finset ε) (a : ε → κ → EReal) (n : ε → EReal) (c : κ → EReal) (t : EReal)
    (W : κ → EReal) (ha : ∀ r k, IsReal (a r k)) (hn : ∀ r, IsReal (n r)) (hc : ∀ k, IsReal (c k)) (ht : IsReal t)
    (hW : ∀ k, IsReal (W k)) :
    ∑ k, (((0 : EReal) + ∑ r ∈ E, a r k * n r) + c k * t) * W k
      = ((0 : EReal) + ∑ r ∈ E, (∑ k, a r k * W k) * n r) + (∑ k, c k * W k) * t := by
  choose a' ha' using ha
  choose n' hn' using hn
  choose c' hc' using hc
  obtain ⟨t', rfl⟩ := ht
  choose W' hW' using hW
  have key : (∑ k, (((0 : ℝ) + ∑ r ∈ E, a' r k * n' r) + c' k * t') * W' k)
      = ((0 : ℝ) + ∑ r ∈ E, (∑ k, a' r k * W' k) * n' r) + (∑ k, c' k * W' k) * t' := by
    simp only [zero_add, add_mul, Finset.sum_add_distrib, Finset.sum_mul]
    congr 1
    · rw [Finset.sum_comm]
      refine Finset.sum_congr rfl fun r _ => Finset.sum_congr rfl fun k _ => ?_
      ring
    · refine Finset.sum_congr rfl fun k _ => ?_
      ring
  have e := congrArg (fun x : ℝ => (x : EReal)) key
  simp only [EReal.coe_add, EReal.coe_mul, coe_sum, EReal.coe_zero] at e
  simpa only [ha', hn', hc', hW'] using e

end Cert.Lib.AggLinear

end
-- ==== Proof.Law.lean ====
/-
  The law that joins the two arrangements of attention, and the realness of the intermediate arrays.

  When every score s[b,i,j] and every value v[b,j,d] is a real number:
    * the row maximum M[b,i] = max_j s[b,i,j], a fold of max from -∞ over a non-empty row, is real
      (the first entry absorbs -∞, and a maximum of two reals is one of them);
    * e[b,i,j] = exp (s[b,i,j] − M[b,i]) is the exponential of a real: a positive real;
    * L[b,i] = Σ_j e[b,i,j] is a sum of positive reals over a non-empty row: a positive real, so L ≠ 0;
    * dividing by the nonzero real L is multiplying by the real 1/L, and on the reals the product
      distributes over the finite sum:
        (Σ_j e_j · v_j) · (1/L) = Σ_j (e_j · (1/L)) · v_j.
  Hence attnK = attnR. The projections and the scores of real arrays are real, being finite sums of products
  of reals (plus a real bias, or times the real 1/8).
-/
import proofs.«112885_j28432683499824_2_alg».proof.Proof.Spec
import proofs.«112885_j28432683499824_2_alg».proof.Proof.Consts
import proofs.«112885_j28432683499824_2_alg».proof.Proof.LibAggLinear

noncomputable section

namespace Cert.Attn

open Idealize.ShloMosaic Idealize.ShloMosaic.ValueIdx
open Cert.Lib.AggLinear (IsReal)

/-! ### Realness of the projections and of the scores -/

/-- A projection of real activations by real weights and a real bias is real. -/
theorem proj_real (x : SX.Idx → EReal) (w : SW.Idx → EReal) (b : SB.Idx → EReal)
    (hx : ∀ i, IsReal (x i)) (hw : ∀ i, IsReal (w i)) (hb : ∀ i, IsReal (b i)) :
    ∀ i, IsReal (proj x w b i) := by
  intro i
  unfold proj
  exact (IsReal.sum _ _ fun h _ => (hx _).mul (hw _)).add (hb _)

/-- The scaled dot products of real queries and keys are real. -/
theorem scores_real (q k : SP.Idx → EReal) (hq : ∀ i, IsReal (q i)) (hk : ∀ i, IsReal (k i)) :
    ∀ i, IsReal (scores q k i) := by
  intro i
  unfold scores
  rw [eighth_eq]
  exact (IsReal.sum _ _ fun d _ => (hq _).mul (hk _)).mul (Cert.Lib.AggLinear.isReal_coe _)

/-! ### The row maximum, the weights and the denominator -/

/-- A fold of max from -∞ over a non-empty finite family of reals is real. -/
theorem fold_max_bot_real {ι : Type*} (t : Finset ι) (ht : t.Nonempty) (f : ι → EReal)
    (hf : ∀ j ∈ t, IsReal (f j)) : IsReal (t.fold max ⊥ f) := by
  induction ht using Finset.Nonempty.cons_induction with
  | singleton a =>
    rw [Finset.fold_singleton, max_eq_left bot_le]
    exact hf a (Finset.mem_singleton_self a)
  | cons a s ha hs ih =>
    rw [Finset.fold_cons]
    exact (hf a (Finset.mem_cons_self a s)).max (ih fun j hj => hf j (Finset.mem_cons.mpr (Or.inr hj)))

/-- The maximum of a row of real scores is real. -/
theorem rowMax_real (s : SS.Idx → EReal) (hs : ∀ i, IsReal (s i)) (b : Fin 4) (i : Fin 4096) :
    IsReal (rowMax s b i) := by
  unfold rowMax
  rw [negInf_eq]
  exact fold_max_bot_real _ Finset.univ_nonempty _ fun j _ => hs _

/-- Each unnormalised weight of a row of real scores is a positive real. -/
theorem expw_pos_real (s : SS.Idx → EReal) (hs : ∀ i, IsReal (s i)) (b : Fin 4) (i j : Fin 4096) :
    ∃ r : ℝ, 0 < r ∧ expw s b i j = (r : EReal) := by
  obtain ⟨m, hm⟩ := rowMax_real s hs b i
  obtain ⟨a, ha⟩ := hs (ix3 b i j)
  refine ⟨Real.exp (a - m), Real.exp_pos _, ?_⟩
  unfold expw
  rw [ha, hm, ← EReal.coe_sub, Ideal.exp_coe]

/-- The denominator of a row of real scores is a nonzero (indeed positive) real. -/
theorem denom_ne_zero_real (s : SS.Idx → EReal) (hs : ∀ i, IsReal (s i)) (b : Fin 4) (i : Fin 4096) :
    ∃ L : ℝ, L ≠ 0 ∧ denom s b i = (L : EReal) := by
  choose e he_pos he using fun j => expw_pos_real s hs b i j
  refine ⟨∑ j, e j, ?_, ?_⟩
  · exact (Finset.sum_pos (fun j _ => he_pos j) Finset.univ_nonempty).ne'
  · unfold denom
    rw [Cert.Lib.AggLinear.coe_sum]
    exact Finset.sum_congr rfl fun j _ => he j

/-! ### The law -/

/-- Division by a nonzero real distributes over a finite sum of products of reals:
    (Σ_j e_j · v_j) / L = Σ_j (e_j / L) · v_j. -/
theorem div_sum_eq {ι : Type*} (t : Finset ι) (e v : ι → ℝ) (L : ℝ) (hL : L ≠ 0) :
    Ideal.div (∑ j ∈ t, ((e j : ℝ) : EReal) * (v j : EReal)) (L : EReal)
      = ∑ j ∈ t, Ideal.div (e j : EReal) (L : EReal) * (v j : EReal) := by
  have hl : (∑ j ∈ t, ((e j : ℝ) : EReal) * (v j : EReal)) = ((∑ j ∈ t, e j * v j : ℝ) : EReal) := by
    rw [Cert.Lib.AggLinear.coe_sum]
    exact Finset.sum_congr rfl fun j _ => (EReal.coe_mul _ _).symm
  have hr : (∑ j ∈ t, Ideal.div (e j : EReal) (L : EReal) * (v j : EReal))
      = ((∑ j ∈ t, e j * (1 / L) * v j : ℝ) : EReal) := by
    rw [Cert.Lib.AggLinear.coe_sum]
    refine Finset.sum_congr rfl fun j _ => ?_
    rw [Ideal.div_coe hL, EReal.coe_mul, EReal.coe_mul]
  rw [hr, Ideal.div_coe hL, hl, ← EReal.coe_mul, Finset.sum_mul]
  congr 1
  exact Finset.sum_congr rfl fun j _ => by ring

/-- On real scores and real values the two arrangements of attention agree. -/
theorem attn_eq (s : SS.Idx → EReal) (v : SP.Idx → EReal) (hs : ∀ i, IsReal (s i)) (hv : ∀ i, IsReal (v i)) :
    attnK s v = attnR s v := by
  funext i
  obtain ⟨L, hL, hden⟩ := denom_ne_zero_real s hs (i 0) (i 1)
  choose e _ he using fun j => expw_pos_real s hs (i 0) (i 1) j
  choose v' hv' using hv
  simp only [attnK, attnR, hden, he, hv']
  exact div_sum_eq Finset.univ e (fun j => v' (ix3 (i 0) j (i 2))) L hL

end Cert.Attn

end
-- ==== Proof.Finite.lean ====
/-
  From the precondition to "every argument entry is a real number".

  The precondition says, for each of the nine float arguments, that the conjunction over all entries of
  `|x| < +∞` holds, and the nine conjunctions hold together. On the extended reals `|x| = max x (-x)`, and
  `max x (-x) < ⊤` excludes both `x = ⊤` and `x = ⊥`: what is left is the image of a real number.
-/
import proofs.«112885_j28432683499824_2_alg».proof.Defs
import proofs.«112885_j28432683499824_2_alg».proof.Proof.Gen.Pre_finite_inputs
import proofs.«112885_j28432683499824_2_alg».proof.Proof.LibAggLinear
import Idealize.ShloMosaic.Lib.ReduceAll
import Idealize.ShloMosaic.Lib.ValueIdx

noncomputable section

namespace Cert.Attn.Finite

open Idealize.ShloMosaic Idealize.ShloMosaic.ValueIdx Idealize.SL.Sem
open Cert.Lib.AggLinear (IsReal)
open Cert.Pre_finite_inputs (S4x4096x1024 S1024x64 S64 S_)

/-- The pattern of `+∞` denotes the top of the extended reals. -/
theorem inf_eq_top : Ideal.ofBits .f32 0x7F800000#32 = (⊤ : EReal) := by
  simp [Ideal.ofBits, Ideal.ieee]

/-- An extended real whose absolute value `max x (-x)` compares below `+∞` is a real number. -/
theorem real_of_abs_lt_inf (x : EReal)
    (h : Ideal.cmp .olt (max x (-x)) (Ideal.ofBits .f32 0x7F800000#32) = 1#1) : IsReal x := by
  rw [inf_eq_top] at h
  have hlt : max x (-x) < ⊤ := by
    by_contra hn
    simp [Ideal.cmp, hn] at h
  induction x using EReal.rec with
  | bot => simp at hlt
  | coe r => exact ⟨r, rfl⟩
  | top => simp at hlt

/-- A scalar has one index. -/
instance : Subsingleton S_.Idx := ⟨fun a b => funext fun d => d.elim0⟩

/-- `all(|x| < +∞)` of an array of any shape, reduced over all its axes into a scalar: if it is 1, every entry is real. -/
theorem all_real {s : Shape} {axes : List (Fin s.rank)} (hb : S_.BroadcastsInDim s (![] : Fin 0 → Fin s.rank))
    (hr : s.ReducesTo axes S_) (hu : 0 < S_.numel) (x : FVec Ideal s .f32)
    (h : Host.reduce IntOp.andi
          (cmpf .olt (Host.absf x) (broadcastInDim s ![] hb (constant (F := Ideal) S_ .f32 0x7F800000#32)))
          (constantI S_ 1 1#1) hr hu ix0 = 1#1)
    (i : s.Idx) : IsReal (x i) :=
  real_of_abs_lt_inf (x i) (Host.reduce_andi_all _ _ hr hu ix0 h i)

/-- The precondition, decoded: all nine arguments have only real entries. -/
theorem args_real [Cert.Pre_finite_inputs.Facts]
    (a0 a1 a2 : FVec Ideal S4x4096x1024 .f32) (a3 : FVec Ideal S1024x64 .f32) (a4 : FVec Ideal S64 .f32)
    (a5 : FVec Ideal S1024x64 .f32) (a6 : FVec Ideal S64 .f32) (a7 : FVec Ideal S1024x64 .f32) (a8 : FVec Ideal S64 .f32)
    (h : Cert.Pre_finite_inputs.fn (F := Ideal) a0 a1 a2 a3 a4 a5 a6 a7 a8 = (fun _ => 1#1)) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) ∧ (∀ i, IsReal (a8 i)) := by
  have h0 := congrFun h ix0
  dsimp only [Cert.Pre_finite_inputs.fn, Cert.Pre_finite_inputs.fn_part1, Cert.Pre_finite_inputs.fn_part2] at h0
  obtain ⟨h07, h8⟩ := IntOp.andi_eq_one.1 h0
  obtain ⟨h06, h7⟩ := IntOp.andi_eq_one.1 h07
  obtain ⟨h05, h6⟩ := IntOp.andi_eq_one.1 h06
  obtain ⟨h04, h5⟩ := IntOp.andi_eq_one.1 h05
  obtain ⟨h03, h4⟩ := IntOp.andi_eq_one.1 h04
  obtain ⟨h02, h3⟩ := IntOp.andi_eq_one.1 h03
  obtain ⟨h01, h2⟩ := IntOp.andi_eq_one.1 h02
  obtain ⟨h00, h1⟩ := IntOp.andi_eq_one.1 h01
  exact ⟨all_real _ _ _ a0 h00, all_real _ _ _ a1 h1, all_real _ _ _ a2 h2, all_real _ _ _ a3 h3, all_real _ _ _ a4 h4,
    all_real _ _ _ a5 h5, all_real _ _ _ a6 h6, all_real _ _ _ a7 h7, all_real _ _ _ a8 h8⟩

/-- The kernel's nine argument buffers, on every device, hold only real entries. -/
theorem kernel_args_real [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal ((m ((c.tc : Thread Cert.KernelIdeal.nD Cert.KernelIdeal.τ).loc Cert.KernelIdeal.main_arg0) : FVec Ideal S4x4096x1024 .f32) i))
      ∧ (∀ i, IsReal ((m ((c.tc : Thread Cert.KernelIdeal.nD Cert.KernelIdeal.τ).loc Cert.KernelIdeal.main_arg1) : FVec Ideal S4x4096x1024 .f32) i))
      ∧ (∀ i, IsReal ((m ((c.tc : Thread Cert.KernelIdeal.nD Cert.KernelIdeal.τ).loc Cert.KernelIdeal.main_arg2) : FVec Ideal S4x4096x1024 .f32) i))
      ∧ (∀ i, IsReal ((m ((c.tc : Thread Cert.KernelIdeal.nD Cert.KernelIdeal.τ).loc Cert.KernelIdeal.main_arg3) : FVec Ideal S1024x64 .f32) i))
      ∧ (∀ i, IsReal ((m ((c.tc : Thread Cert.KernelIdeal.nD Cert.KernelIdeal.τ).loc Cert.KernelIdeal.main_arg4) : FVec Ideal S64 .f32) i))
      ∧ (∀ i, IsReal ((m ((c.tc : Thread Cert.KernelIdeal.nD Cert.KernelIdeal.τ).loc Cert.KernelIdeal.main_arg5) : FVec Ideal S1024x64 .f32) i))
      ∧ (∀ i, IsReal ((m ((c.tc : Thread Cert.KernelIdeal.nD Cert.KernelIdeal.τ).loc Cert.KernelIdeal.main_arg6) : FVec Ideal S64 .f32) i))
      ∧ (∀ i, IsReal ((m ((c.tc : Thread Cert.KernelIdeal.nD Cert.KernelIdeal.τ).loc Cert.KernelIdeal.main_arg7) : FVec Ideal S1024x64 .f32) i))
      ∧ (∀ i, IsReal ((m ((c.tc : Thread Cert.KernelIdeal.nD Cert.KernelIdeal.τ).loc Cert.KernelIdeal.main_arg8) : FVec Ideal S64 .f32) i)) :=
  args_real _ _ _ _ _ _ _ _ _ (h c)

end Cert.Attn.Finite

end
-- ==== Proof.lean ====
/-
  The certificate of a single-head attention kernel against its jnp reference, on the extended reals.

  Both programs compute q, k, v = x · W + b and the scores (Σ_d q·k) scaled by 1/√64: the kernel multiplies by the
  word 1/8, the reference divides by the square root of the word 64, and on every extended real these agree. From the
  scores both take exp (s − the row's maximum) and its row sum L; the kernel then forms (Σ_j e_j · v_j) / L, one
  division per entry, where the reference forms Σ_j (e_j / L) · v_j, softmax first. Under the precondition every
  input is a real number, hence so are q, k, v and the scores; the weights are positive reals, L is a positive real,
  and the quotient distributes over the finite sum: the two outputs are equal.

  The kernel is two regions (projections, then attention); its arrays after the run are read off the generated frame
  run, region by region. The reference's run and its stages are the generated read-back. Nothing of the word-level
  kernel is needed beyond its generated frame: the idealization rewrote no operation.
-/
import proofs.«112885_j28432683499824_2_alg».proof.Defs
import proofs.«112885_j28432683499824_2_alg».proof.Proof.Gen.Kernel
import proofs.«112885_j28432683499824_2_alg».proof.Proof.Gen.Kernel.Skeleton
import proofs.«112885_j28432683499824_2_alg».proof.Proof.Gen.Kernel.Launch
import proofs.«112885_j28432683499824_2_alg».proof.Proof.Gen.Kernel.Points
import proofs.«112885_j28432683499824_2_alg».proof.Proof.Gen.Kernel.Frame
import proofs.«112885_j28432683499824_2_alg».proof.Proof.Gen.KernelIdeal
import proofs.«112885_j28432683499824_2_alg».proof.Proof.Gen.KernelIdeal.Skeleton
import proofs.«112885_j28432683499824_2_alg».proof.Proof.Gen.KernelIdeal.Launch
import proofs.«112885_j28432683499824_2_alg».proof.Proof.Gen.KernelIdeal.Points
import proofs.«112885_j28432683499824_2_alg».proof.Proof.Gen.KernelIdeal.Frame
import proofs.«112885_j28432683499824_2_alg».proof.Proof.Gen.ReferenceIdeal
import proofs.«112885_j28432683499824_2_alg».proof.Proof.Gen.Pre_finite_inputs
import proofs.«112885_j28432683499824_2_alg».proof.Proof.Gen.ReferenceIdeal.Run
import proofs.«112885_j28432683499824_2_alg».proof.Proof.Gen.ReferenceIdeal.Read
import proofs.«112885_j28432683499824_2_alg».proof.Proof.KernelValue
import proofs.«112885_j28432683499824_2_alg».proof.Proof.RefRead
import proofs.«112885_j28432683499824_2_alg».proof.Proof.Law
import proofs.«112885_j28432683499824_2_alg».proof.Proof.Finite
import Idealize.ShloMosaic.Adequacy
import Idealize.ShloMosaic.Init

noncomputable section

namespace Cert.Proof

open Idealize.ShloMosaic Idealize.SL.Sem

section
variable [Cert.Kernel.Facts] [Cert.KernelIdeal.Facts] [Cert.ReferenceIdeal.Facts] [Cert.Pre_finite_inputs.Facts]

/-- The word-level kernel runs and leaves its arguments unchanged: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments unchanged: its generated run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation: nothing to preserve. -/
theorem preserves : Cert.preserves_Kernel_KernelIdeal := trivial

/-- Both programs end with the same two arrays: the kernel's `attnK (scores q k) v` and `scores q k` of the launch
    arrays (its run, read), and the reference's `attnR (scores q k) v` and `scores q k` of arrays that agree with
    them; `attnK = attnR` because every input, hence every score and every value, is a real number. -/
theorem algebraic : Cert.algebraic_KernelIdeal_ReferenceIdeal := by
  intro m ρ m' ρ' hpre hagree
  refine ⟨fun c => Cert.Attn.attnK (Cert.Attn.scores (Cert.KernelIdeal.Attn.qOf m c) (Cert.KernelIdeal.Attn.kOf m c)) (Cert.KernelIdeal.Attn.vOf m c),
    fun c => Cert.Attn.scores (Cert.KernelIdeal.Attn.qOf m c) (Cert.KernelIdeal.Attn.kOf m c),
    Cert.KernelIdeal.Attn.run_value m ρ, ?_⟩
  refine (θ_run Cert.ReferenceIdeal.defs _ _).mono (fun _ h c => ⟨?_, ?_, (h c).2.2⟩)
    (Cert.ReferenceIdeal.Value.run (F := Ideal) m' ρ')
  · obtain ⟨r0, r1, r2, r3, r4, r5, r6, r7, r8⟩ := Cert.Attn.Finite.kernel_args_real m hpre c
    have hq := Cert.Attn.proj_real _ _ _ r0 r3 r4
    have hk := Cert.Attn.proj_real _ _ _ r1 r5 r6
    have hv := Cert.Attn.proj_real _ _ _ r2 r7 r8
    have hs := Cert.Attn.scores_real _ _ hq hk
    refine (h c).1.trans ?_
    rw [Cert.ReferenceIdeal.Read.val_main_v27_eq]
    obtain ⟨a0, a1, a2, a3, a4, a5, a6, a7, a8⟩ := hagree c
    rw [a0, a1, a2, a3, a4, a5, a6, a7, a8]
    exact (Cert.Attn.Ref.ref_out _ _ _ _ _ _ _ _ _).trans (Cert.Attn.attn_eq _ _ hs hv).symm
  · refine (h c).2.1.trans ?_
    obtain ⟨a0, a1, a2, a3, a4, a5, a6, a7, a8⟩ := hagree c
    rw [a0, a1, a3, a4, a5, a6]
    exact (Cert.ReferenceIdeal.Read.val_main_v15_eq _ _ _ _ _ _).trans (Cert.Attn.Ref.ref_scores _ _ _ _ _ _)

end

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
